-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S2x3x16x16 : Shape := ⟨4, ![2, 3, 16, 16]⟩
abbrev S1x3x256x512 : Shape := ⟨4, ![1, 3, 256, 512]⟩
abbrev S1x3x16x16 : Shape := ⟨4, ![1, 3, 16, 16]⟩
abbrev S3x16x16 : Shape := ⟨3, ![3, 16, 16]⟩
abbrev S16x1 : Shape := ⟨2, ![16, 1]⟩
abbrev S3x256x512 : Shape := ⟨3, ![3, 256, 512]⟩
abbrev S3x131072 : Shape := ⟨2, ![3, 131072]⟩
abbrev S1x131072 : Shape := ⟨2, ![1, 131072]⟩
abbrev S131072 : Shape := ⟨1, ![131072]⟩
abbrev S16x131072 : Shape := ⟨2, ![16, 131072]⟩
abbrev S16x16 : Shape := ⟨2, ![16, 16]⟩
abbrev S1x16x16 : Shape := ⟨3, ![1, 16, 16]⟩
abbrev S_ : Shape := ⟨0, ![]⟩
abbrev S3x256 : Shape := ⟨2, ![3, 256]⟩
abbrev S3 : Shape := ⟨1, ![3]⟩

abbrev nBuf : Space → Nat
  | .hbm => 39
  | .vmem => 10
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S2x3x16x16, .f32⟩
  | .hbm, ⟨3, _⟩ => ⟨S2x3x16x16, .f32⟩
  | .hbm, ⟨4, _⟩ => ⟨S_, .f32⟩
  | .hbm, ⟨5, _⟩ => ⟨S3x16x16, .f32⟩
  | .hbm, ⟨6, _⟩ => ⟨S3x256, .f32⟩
  | .hbm, ⟨7, _⟩ => ⟨S_, .f32⟩
  | .hbm, ⟨8, _⟩ => ⟨S3x16x16, .f32⟩
  | .hbm, ⟨9, _⟩ => ⟨S3x256, .f32⟩
  | .hbm, ⟨10, _⟩ => ⟨S3x256, .f32⟩
  | .hbm, ⟨11, _⟩ => ⟨S3x256, .f32⟩
  | .hbm, ⟨12, _⟩ => ⟨S_, .f32⟩
  | .hbm, ⟨13, _⟩ => ⟨S3, .f32⟩
  | .hbm, ⟨14, _⟩ => ⟨S_, .f32⟩
  | .hbm, ⟨15, _⟩ => ⟨S3, .f32⟩
  | .hbm, ⟨16, _⟩ => ⟨S_, .f32⟩
  | .hbm, ⟨17, _⟩ => ⟨S3, .f32⟩
  | .hbm, ⟨18, _⟩ => ⟨S3, .f32⟩
  | .hbm, ⟨19, _⟩ => ⟨S_, .f32⟩
  | .hbm, ⟨20, _⟩ => ⟨S3, .f32⟩
  | .hbm, ⟨21, _⟩ => ⟨S_, .f32⟩
  | .hbm, ⟨22, _⟩ => ⟨S3, .f32⟩
  | .hbm, ⟨23, _⟩ => ⟨S3, .f32⟩
  | .hbm, ⟨24, _⟩ => ⟨S3, .f32⟩
  | .hbm, ⟨25, _⟩ => ⟨S3, .f32⟩
  | .hbm, ⟨26, _⟩ => ⟨S_, .f32⟩
  | .hbm, ⟨27, _⟩ => ⟨S3, .f32⟩
  | .hbm, ⟨28, _⟩ => ⟨S3, .f32⟩
  | .hbm, ⟨29, _⟩ => ⟨S3, .f32⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S_, .f32⟩
  | .hbm, ⟨34, _⟩ => ⟨S3, .f32⟩
  | .hbm, ⟨35, _⟩ => ⟨S3, .f32⟩
  | .hbm, ⟨36, _⟩ => ⟨S3, .f32⟩
  | .hbm, ⟨37, _⟩ => ⟨S_, .f32⟩
  | .hbm, ⟨38, _⟩ => ⟨S_, .f32⟩
  | .local _ .vmem, ⟨0, _⟩ => ⟨S1x3x256x512, .f32⟩
  | .local _ .vmem, ⟨1, _⟩ => ⟨S1x3x256x512, .f32⟩
  | .local _ .vmem, ⟨2, _⟩ => ⟨S1x3x256x512, .f32⟩
  | .local _ .vmem, ⟨3, _⟩ => ⟨S1x3x256x512, .f32⟩
  | .local _ .vmem, ⟨4, _⟩ => ⟨S1x3x16x16, .f32⟩
  | .local _ .vmem, ⟨5, _⟩ => ⟨S1x3x16x16, .f32⟩
  | .local _ .vmem, ⟨6, _⟩ => ⟨S1x3x16x16, .f32⟩
  | .local _ .vmem, ⟨7, _⟩ => ⟨S1x3x16x16, .f32⟩
  | .local _ .vmem, ⟨8, _⟩ => ⟨S3x16x16, .f32⟩
  | .local _ .vmem, ⟨9, _⟩ => ⟨S3x16x16, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 2], ![false, false, false]⟩

def k0_cond2 (i : grid0.Coords) : BitVec 1 :=
  let arg1 : BitVec 32 := BitVec.ofNat 32 (i 1).val
  let c15_i32 : BitVec 32 := 15#32
  let v3 : BitVec 1 := Scalar.cmpi .eq arg1 c15_i32
  let arg2 : BitVec 32 := BitVec.ofNat 32 (i 2).val
  let c1_i32 : BitVec 32 := 1#32
  let v4 : BitVec 1 := Scalar.cmpi .eq arg2 c1_i32
  let v5 : BitVec 1 := Scalar.andi v3 v4
  let v185 : BitVec 32 := Scalar.extui v5
  let c0_i32_55 : BitVec 32 := 0#32
  let v186 : BitVec 1 := Scalar.cmpi .ne v185 c0_i32_55
  v186

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x3x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S3x16x16_S3x16x16_0_0_0 : ∀ a, (![0, 0, 0] : Fin 3 → Nat) a + S3x16x16.size a ≤ S3x16x16.size a
  h_S3x16x16 : 0 < S3x16x16.numel
  shapeCasts_S3x16x16_S3x16x16 : S3x16x16.ShapeCasts S3x16x16
  iota_S16x1_d0_w32 : S16x1.Iotas .tc 32 [0]
  inb_S1x3x256x512_S1x3x256x512_0_0_0_0 : ∀ a, (![0, 0, 0, 0] : Fin 4 → Nat) a + S1x3x256x512.size a ≤ S1x3x256x512.size a
  h_S1x3x256x512 : 0 < S1x3x256x512.numel
  shapeCasts_S1x3x256x512_S3x256x512 : S1x3x256x512.ShapeCasts S3x256x512
  shapeCasts_S3x256x512_S3x131072 : S3x256x512.ShapeCasts S3x131072
  slices_S3x131072_o0_0_S1x131072 : S3x131072.Slices ![0, 0] S1x131072
  shapeCasts_S1x131072_S131072 : S1x131072.ShapeCasts S131072
  shapeCasts_S131072_S1x131072 : S131072.ShapeCasts S1x131072
  broadcasts_S16x1_S16x131072 : S16x1.Broadcasts S16x131072
  broadcasts_S1x131072_S16x131072 : S1x131072.Broadcasts S16x131072
  natLt_1_32 : 1 < 32
  bitsLt_bf16_f32 : FTy.bits .bf16 < FTy.bits .f32
  inb_S3x16x16_S1x16x16_0_0_0 : ∀ a, (![0, 0, 0] : Fin 3 → Nat) a + S1x16x16.size a ≤ S3x16x16.size a
  h_S1x16x16 : 0 < S1x16x16.numel
  shapeCasts_S1x16x16_S16x16 : S1x16x16.ShapeCasts S16x16
  shapeCasts_S16x16_S1x16x16 : S16x16.ShapeCasts S1x16x16
  slices_S3x131072_o1_0_S1x131072 : S3x131072.Slices ![1, 0] S1x131072
  inb_S3x16x16_S1x16x16_1_0_0 : ∀ a, (![1, 0, 0] : Fin 3 → Nat) a + S1x16x16.size a ≤ S3x16x16.size a
  slices_S3x131072_o2_0_S1x131072 : S3x131072.Slices ![2, 0] S1x131072
  inb_S3x16x16_S1x16x16_2_0_0 : ∀ a, (![2, 0, 0] : Fin 3 → Nat) a + S1x16x16.size a ≤ S3x16x16.size a
  inb_S1x3x16x16_S1x3x16x16_0_0_0_0 : ∀ a, (![0, 0, 0, 0] : Fin 4 → Nat) a + S1x3x16x16.size a ≤ S1x3x16x16.size a
  h_S1x3x16x16 : 0 < S1x3x16x16.numel
  shapeCasts_S1x3x16x16_S3x16x16 : S1x3x16x16.ShapeCasts S3x16x16
  shapeCasts_S3x16x16_S1x3x16x16 : S3x16x16.ShapeCasts S1x3x16x16
  reducesTo_S2x3x16x16_S3x16x16_d0 : S2x3x16x16.ReducesTo [0] S3x16x16
  h_S_ : 0 < S_.numel
  shapeCasts_S3x16x16_S3x256 : S3x16x16.ShapeCasts S3x256
  reducesTo_S3x256_S3_d1 : S3x256.ReducesTo [1] S3
  bcast_S_S3 : S_.BroadcastsInDim S3 (![] : Fin 0 → Fin S3.rank)
  reducesTo_S3_S_d0 : S3.ReducesTo [0] S_
  dot_S16x131072_S16x131072_S16x16_1_1_0_0_n_n_wf : DotDims.WF S16x131072 S16x131072 S16x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x512.size a ≤ S32x3x512x512.size a
  hwx0_0 : ∀ i : grid0.Coords, EltTy.bits .f32 = 32 ∨ (Rect.block (s := S32x3x512x512) S1x3x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x256x512.size a ≤ S32x3x512x512.size a
  hwx0_1 : ∀ i : grid0.Coords, EltTy.bits .f32 = 32 ∨ (Rect.block (s := S32x3x512x512) S1x3x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x16x16.size a ≤ S2x3x16x16.size a
  hwx0_2 : ∀ i : grid0.Coords, EltTy.bits .f32 = 32 ∨ (Rect.block (s := S2x3x16x16) S1x3x16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x16x16.size a ≤ S2x3x16x16.size a
  hwx0_3 : ∀ i : grid0.Coords, EltTy.bits .f32 = 32 ∨ (Rect.block (s := S2x3x16x16) S1x3x16x16.size (cc0_transform_3 i) (hinb0_3 i)).WholeWords (EltTy.packing .f32)

variable [Facts₀]

def dot_S16x131072_S16x131072_S16x16_1_1_0_0_n_n : DotDims S16x131072 S16x131072 S16x16 where
  lhsContracting := [1]
  rhsContracting := [1]
  lhsNonContracting := [0]
  rhsNonContracting := [0]
  lhsBatch := []
  rhsBatch := []
  wf := dot_S16x131072_S16x131072_S16x16_1_1_0_0_n_n_wf

abbrev win0_0 : Pipeline.Window sig grid0 :=
  Pipeline.Window.ofSpec (Memref.whole main_arg0) S1x3x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x3x16x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x3x16x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S3 : Shape := ⟨1, ![3]⟩
abbrev S1x3x1x1 : Shape := ⟨4, ![1, 3, 1, 1]⟩
abbrev S25165824 : Shape := ⟨1, ![25165824]⟩
abbrev S768 : Shape := ⟨1, ![768]⟩
abbrev S25165824x1 : Shape := ⟨2, ![25165824, 1]⟩
abbrev S3x256 : Shape := ⟨2, ![3, 256]⟩

abbrev nBuf : Space → Nat
  | .hbm => 93
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32x3x512x512, .f32⟩
  | .hbm, ⟨6, _⟩ => ⟨S32x3x512x512, .f32⟩
  | .hbm, ⟨7, _⟩ => ⟨S_, .f32⟩
  | .hbm, ⟨8, _⟩ => ⟨S32x3x512x512, .f32⟩
  | .hbm, ⟨9, _⟩ => ⟨S32x3x512x512, .f32⟩
  | .hbm, ⟨10, _⟩ => ⟨S32x3x512x512, .i32⟩
  | .hbm, ⟨11, _⟩ => ⟨S3, .i32⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S1x3x1x1, .i32⟩
  | .hbm, ⟨16, _⟩ => ⟨S32x3x512x512, .i32⟩
  | .hbm, ⟨17, _⟩ => ⟨S32x3x512x512, .i32⟩
  | .hbm, ⟨18, _⟩ => ⟨S25165824, .i32⟩
  | .hbm, ⟨19, _⟩ => ⟨S_, .f32⟩
  | .hbm, ⟨20, _⟩ => ⟨S768, .f32⟩
  | .hbm, ⟨21, _⟩ => ⟨S_, .i32⟩
  | .hbm, ⟨22, _⟩ => ⟨S25165824, .i32⟩
  | .hbm, ⟨23, _⟩ => ⟨S25165824, .i1⟩
  | .hbm, ⟨24, _⟩ => ⟨S_, .i32⟩
  | .hbm, ⟨25, _⟩ => ⟨S25165824, .i32⟩
  | .hbm, ⟨26, _⟩ => ⟨S25165824, .i32⟩
  | .hbm, ⟨27, _⟩ => ⟨S25165824, .i32⟩
  | .hbm, ⟨28, _⟩ => ⟨S25165824x1, .i32⟩
  | .hbm, ⟨29, _⟩ => ⟨S_, .f32⟩
  | .hbm, ⟨30, _⟩ => ⟨S25165824, .f32⟩
  | .hbm, ⟨31, _⟩ => ⟨S768, .f32⟩
  | .hbm, ⟨32, _⟩ => ⟨S3x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S32x3x512x512, .f32⟩
  | .hbm, ⟨37, _⟩ => ⟨S32x3x512x512, .f32⟩
  | .hbm, ⟨38, _⟩ => ⟨S_, .f32⟩
  | .hbm, ⟨39, _⟩ => ⟨S32x3x512x512, .f32⟩
  | .hbm, ⟨40, _⟩ => ⟨S32x3x512x512, .f32⟩
  | .hbm, ⟨41, _⟩ => ⟨S32x3x512x512, .i32⟩
  | .hbm, ⟨42, _⟩ => ⟨S3, .i32⟩
  | .hbm, ⟨43, _⟩ => ⟨S_, .i32⟩
  | .hbm, ⟨44, _⟩ => ⟨S3, .i32⟩
  | .hbm, ⟨45, _⟩ => ⟨S3, .i32⟩
  | .hbm, ⟨46, _⟩ => ⟨S1x3x1x1, .i32⟩
  | .hbm, ⟨47, _⟩ => ⟨S32x3x512x512, .i32⟩
  | .hbm, ⟨48, _⟩ => ⟨S32x3x512x512, .i32⟩
  | .hbm, ⟨49, _⟩ => ⟨S25165824, .i32⟩
  | .hbm, ⟨50, _⟩ => ⟨S_, .f32⟩
  | .hbm, ⟨51, _⟩ => ⟨S768, .f32⟩
  | .hbm, ⟨52, _⟩ => ⟨S_, .i32⟩
  | .hbm, ⟨53, _⟩ => ⟨S25165824, .i32⟩
  | .hbm, ⟨54, _⟩ => ⟨S25165824, .i1⟩
  | .hbm, ⟨55, _⟩ => ⟨S_, .i32⟩
  | .hbm, ⟨56, _⟩ => ⟨S25165824, .i32⟩
  | .hbm, ⟨57, _⟩ => ⟨S25165824, .i32⟩
  | .hbm, ⟨58, _⟩ => ⟨S25165824, .i32⟩
  | .hbm, ⟨59, _⟩ => ⟨S25165824x1, .i32⟩
  | .hbm, ⟨60, _⟩ => ⟨S_, .f32⟩
  | .hbm, ⟨61, _⟩ => ⟨S25165824, .f32⟩
  | .hbm, ⟨62, _⟩ => ⟨S768, .f32⟩
  | .hbm, ⟨63, _⟩ => ⟨S3x256, .f32⟩
  | .hbm, ⟨64, _⟩ => ⟨S3x256, .f32⟩
  | .hbm, ⟨65, _⟩ => ⟨S3x256, .f32⟩
  | .hbm, ⟨66, _⟩ => ⟨S_, .f32⟩
  | .hbm, ⟨67, _⟩ => ⟨S3, .f32⟩
  | .hbm, ⟨68, _⟩ => ⟨S_, .f32⟩
  | .hbm, ⟨69, _⟩ => ⟨S3, .f32⟩
  | .hbm, ⟨70, _⟩ => ⟨S_, .f32⟩
  | .hbm, ⟨71, _⟩ => ⟨S3, .f32⟩
  | .hbm, ⟨72, _⟩ => ⟨S3, .f32⟩
  | .hbm, ⟨73, _⟩ => ⟨S_, .f32⟩
  | .hbm, ⟨74, _⟩ => ⟨S3, .f32⟩
  | .hbm, ⟨75, _⟩ => ⟨S_, .f32⟩
  | .hbm, ⟨76, _⟩ => ⟨S3, .f32⟩
  | .hbm, ⟨77, _⟩ => ⟨S3, .f32⟩
  | .hbm, ⟨78, _⟩ => ⟨S3, .f32⟩
  | .hbm, ⟨79, _⟩ => ⟨S3, .f32⟩
  | .hbm, ⟨80, _⟩ => ⟨S_, .f32⟩
  | .hbm, ⟨81, _⟩ => ⟨S3, .f32⟩
  | .hbm, ⟨82, _⟩ => ⟨S3, .f32⟩
  | .hbm, ⟨83, _⟩ => ⟨S3, .f32⟩
  | .hbm, ⟨84, _⟩ => ⟨S_, .f32⟩
  | .hbm, ⟨85, _⟩ => ⟨S3, .f32⟩
  | .hbm, ⟨86, _⟩ => ⟨S3, .f32⟩
  | .hbm, ⟨87, _⟩ => ⟨S_, .f32⟩
  | .hbm, ⟨88, _⟩ => ⟨S3, .f32⟩
  | .hbm, ⟨89, _⟩ => ⟨S3, .f32⟩
  | .hbm, ⟨90, _⟩ => ⟨S3, .f32⟩
  | .hbm, ⟨91, _⟩ => ⟨S_, .f32⟩
  | .hbm, ⟨92, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_7 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_c_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_cst_13 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_17 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_18 : Ref sig .tc := ⟨.hbm, 84, rfl⟩
abbrev main_v52 : Ref sig .tc := ⟨.hbm, 85, rfl⟩
abbrev main_v53 : Ref sig .tc := ⟨.hbm, 86, rfl⟩
abbrev main_cst_19 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_20 : Ref sig .tc := ⟨.hbm, 91, rfl⟩
abbrev main_v57 : Ref sig .tc := ⟨.hbm, 92, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  bcast_S_S3 : S_.BroadcastsInDim S3 (![] : Fin 0 → Fin S3.rank)
  bcast_S3_S1x3x1x1_1 : S3.BroadcastsInDim S1x3x1x1 (![1] : Fin 1 → Fin S1x3x1x1.rank)
  bcast_S1x3x1x1_S32x3x512x512_0_1_2_3 : S1x3x1x1.BroadcastsInDim S32x3x512x512 (![0, 1, 2, 3] : Fin 4 → Fin S32x3x512x512.rank)
  shapeCasts_S32x3x512x512_S25165824 : S32x3x512x512.ShapeCasts S25165824
  bcast_S_S768 : S_.BroadcastsInDim S768 (![] : Fin 0 → Fin S768.rank)
  bcast_S_S25165824 : S_.BroadcastsInDim S25165824 (![] : Fin 0 → Fin S25165824.rank)
  bcast_S25165824_S25165824x1_0 : S25165824.BroadcastsInDim S25165824x1 (![0] : Fin 1 → Fin S25165824x1.rank)
  shapeCasts_S768_S3x256 : S768.ShapeCasts S3x256
  reducesTo_S3x256_S3_d1 : S3x256.ReducesTo [1] S3
  h_S_ : 0 < S_.numel
  reducesTo_S3_S_d0 : S3.ReducesTo [0] S_
  scatter_S768_S25165824x1_S25165824_n_0_0_1_wf : ScatterDims.WF S768 S25165824x1 S25165824 [] [0] [0] 1

variable [Facts₀]

def scatter_S768_S25165824x1_S25165824_n_0_0_1 : ScatterDims S768 S25165824x1 S25165824 where
  updateWindowDims := []
  insertedWindowDims := [0]
  scatterDimsToOperandDims := [0]
  indexVectorDim := 1
  wf := scatter_S768_S25165824x1_S25165824_n_0_0_1_wf

class Facts : Prop extends Facts₀ where

variable [Facts]
-- ==== Proof.Spec.lean ====
/-
  The histogram both programs compute, stated once over plain index types.

  A pixel value x is clipped to [0, 255] and truncated toward zero to an integer bin(x) in {0, …, 255}. For a
  channel c and a bin v, the histogram entry is the NUMBER of pixels (over the whole batch and image) of channel
  c whose bin is v, written as a sum of ones and zeros on the extended reals. One program counts by scattering
  a one per pixel at the flat position 256·c + bin; the other splits the bin into its two hexadecimal digits,
  bin = 16·hi + lo, and counts pairs (hi, lo) block by block as a sum of products of indicator values. Both
  are this count, because each pixel contributes exactly one unit at exactly one (c, hi, lo).
-/
import Idealize.ShloMosaic.PureOps.Ideal
import Idealize.ShloMosaic.Lib.ValueIdx

noncomputable section

namespace Cert.Hist

open Idealize.ShloMosaic Idealize.ShloMosaic.ValueIdx

/-- The image batch: 32 images, 3 channels, 512 rows, 512 columns. -/
abbrev SImg : Shape := ⟨4, ![32, 3, 512, 512]⟩
/-- The histograms: 3 channels, 256 bins. -/
abbrev SHist : Shape := ⟨2, ![3, 256]⟩

/-- The bin of a pixel value: the value clipped to [0, 255] (the two literal words are 0.0 and 255.0), truncated
    toward zero, as a 32-bit word. -/
def bin (x : EReal) : BitVec 32 :=
  Ideal.fptosi 32 (min (Ideal.ofBits .f32 0x437F0000#32) (max (Ideal.ofBits .f32 0x00000000#32) x))

/-- The number of pixels of channel `c` whose bin is `v`, over every image, row and column: a sum of ones. -/
def count (x : SImg.Idx → EReal) (c : Fin 3) (v : Fin 256) : EReal :=
  ∑ n : Fin 32, ∑ y : Fin 512, ∑ z : Fin 512, if (bin (x (ix4 n c y z))).toNat = v.val then (1 : EReal) else 0

/-- The three 256-bin histograms of an image batch, as one array. -/
def hist (x : SImg.Idx → EReal) : SHist.Idx → EReal := fun i => count x (i 0) (i 1)

end Cert.Hist

end
-- ==== Proof.BinArith.lean ====
/-
  The word arithmetic of the bin.

  A pixel value is clipped to the interval [0, 255] and truncated toward zero; the result is an integer between
  0 and 255, held in a 32-bit word. This module collects the elementary facts about that word which the two
  counting arguments share:

  • the two float literals of the clip denote the reals 0 and 255, and the literal of the scattered unit denotes 1;
  • the bin is below 256, so its signed and unsigned readings coincide;
  • for a word below 256 the arithmetic shift right by four places is the quotient by 16 and the mask with 15 is
    the remainder by 16, so the pair (quotient, remainder) determines the word: w = 16·h + l;
  • an equality test of two words, widened to 32 bits and read as a real, is the indicator 1 / 0 of the equality,
    and the product of the two digit indicators is the indicator of w = 16·h + l;
  • the flat scatter position bin + 256·channel is computed without wrap-around, it determines the channel and
    the bin, and it is never negative, so the "add the length to a negative position" correction leaves it alone.
-/
import proofs.«145997_j19834158972940_2_alg».proof.Proof.Spec

noncomputable section

namespace Cert.Hist

open Idealize.ShloMosaic

/-! ### The three float literals -/

/-- The literal word 0x437F0000 denotes the real 255: sign 0, exponent field 134, fraction field 0x7F0000, that is
    (2²³ + 8323072) · 2^(134 − 127 − 23) = 16711680 / 65536. -/
theorem ofBits_255 : Ideal.ofBits .f32 0x437F0000#32 = ((255 : ℝ) : EReal) := by
  simp [Ideal.ofBits, Ideal.ieee, -EReal.coe_mul]; norm_num

/-- The literal word 0x3F800000 denotes the real 1: exponent field 127, fraction field 0. -/
theorem ofBits_one : Ideal.ofBits .f32 0x3F800000#32 = (1 : EReal) := by
  simp [Ideal.ofBits, Ideal.ieee, -EReal.coe_mul]; norm_num

/-- The all-zero word denotes 0. -/
theorem ofBits_zero : Ideal.ofBits .f32 0x00000000#32 = (0 : EReal) := by
  simp [Ideal.ofBits, Ideal.ieee]

/-! ### The bin is an integer between 0 and 255 -/

/-- Clipping ANY extended real to [0, 255], the two infinities included, gives a real number r with 0 ≤ r ≤ 255:
    the clipped value lies between the reals 0 and 255 in the order of the extended reals, so it is neither
    infinity. -/
theorem clip_real (x : EReal) :
    ∃ r : ℝ, 0 ≤ r ∧ r ≤ 255 ∧ min (((255 : ℝ) : EReal)) (max 0 x) = (r : EReal) := by
  have h0 : (0 : EReal) ≤ min (((255 : ℝ) : EReal)) (max 0 x) :=
    le_min (by exact_mod_cast (by norm_num : (0 : ℝ) ≤ 255)) (le_max_left _ _)
  have h1 : min (((255 : ℝ) : EReal)) (max 0 x) ≤ ((255 : ℝ) : EReal) := min_le_left _ _
  generalize min (((255 : ℝ) : EReal)) (max 0 x) = y at h0 h1
  induction y using EReal.rec with
  | bot => simp at h0
  | top => simp at h1
  | coe r => exact ⟨r, by exact_mod_cast h0, by exact_mod_cast h1, rfl⟩

/-- The bin is the word of a natural number below 256: the clipped value is a real r in [0, 255], truncation toward
    zero of a real that is not negative is its floor, the floor lies in {0, …, 255}, and the clamp to the signed
    32-bit range does nothing there. -/
theorem bin_eq_ofNat (x : EReal) : ∃ n : ℕ, n < 256 ∧ bin x = BitVec.ofNat 32 n := by
  obtain ⟨r, h0, h1, hr⟩ := clip_real x
  have hf0 : 0 ≤ ⌊r⌋ := Int.floor_nonneg.mpr h0
  have hf1 : ⌊r⌋ < 256 := Int.floor_lt.mpr (by push_cast; linarith)
  refine ⟨⌊r⌋.toNat, by omega, ?_⟩
  unfold bin
  rw [ofBits_255, ofBits_zero, hr, Ideal.fptosi, Ideal.toIntClamped_coe, if_pos h0,
    ← BitVec.ofInt_natCast, Int.toNat_of_nonneg hf0]
  congr 1
  omega

/-- A bin is one of 0, …, 255. -/
theorem bin_toNat_lt (x : EReal) : (bin x).toNat < 256 := by
  obtain ⟨n, hn, h⟩ := bin_eq_ofNat x
  rw [h, BitVec.toNat_ofNat]; omega

/-- A bin is not negative: its signed reading is its unsigned one (a word below 2³¹ has a clear sign bit). -/
theorem bin_toInt (x : EReal) : (bin x).toInt = ((bin x).toNat : Int) :=
  BitVec.toInt_eq_toNat_of_lt (by have := bin_toNat_lt x; omega)

/-! ### The two hexadecimal digits of a word below 256 -/

/-- For a word below 256 the arithmetic shift right by four places is the quotient by 16: the sign bit is clear,
    so the arithmetic shift is the logical one, and a logical shift by four places divides by 2⁴. -/
theorem shr4_toNat (w : BitVec 32) (hw : w.toNat < 256) :
    (IntOp.shrsi .vector w 4#32).toNat = w.toNat / 16 := by
  have hm : w.msb = false := BitVec.msb_eq_false_iff_two_mul_lt.mpr (by omega)
  rw [IntOp.shrsi, if_pos (by decide), BitVec.sshiftRight_eq', BitVec.sshiftRight_eq_of_msb_false hm,
    BitVec.toNat_ushiftRight, Nat.shiftRight_eq_div_pow]
  rfl

/-- The mask with 15 = 2⁴ − 1 is the remainder by 16. -/
theorem and15_toNat (w : BitVec 32) : (IntOp.andi w 15#32).toNat = w.toNat % 16 := by
  rw [IntOp.andi, BitVec.toNat_and]
  exact Nat.and_two_pow_sub_one_eq_mod w.toNat 4

/-- An equality test gives the one-bit word 1 or 0; widened to 32 bits and read as a real it is the indicator of
    the equality. -/
theorem cmpi_eq_real (a b : BitVec 32) :
    ((((IntOp.cmpi .eq a b).setWidth 32).toInt : ℝ) : EReal) = if a = b then (1 : EReal) else 0 := by
  by_cases h : a = b
  · subst h; simp [IntOp.cmpi]
  · have hb : (a == b) = false := beq_eq_false_iff_ne.mpr h
    rw [if_neg h, IntOp.cmpi]
    show ((((BitVec.ofBool (a == b)).setWidth 32).toInt : ℝ) : EReal) = 0
    rw [hb]; simp

/-- The two hexadecimal digits determine a word below 256, and conversely: h = w / 16 and l = w mod 16 with
    l < 16 say exactly w = 16·h + l. -/
theorem digits_iff (w : BitVec 32) (hw : w.toNat < 256) (h l : Fin 16) :
    (BitVec.ofNat 32 h.val = IntOp.shrsi .vector w 4#32 ∧ BitVec.ofNat 32 l.val = IntOp.andi w 15#32)
      ↔ w.toNat = 16 * h.val + l.val := by
  rw [← BitVec.toNat_inj, ← BitVec.toNat_inj, shr4_toNat w hw, and15_toNat, BitVec.toNat_ofNat, BitVec.toNat_ofNat]
  have := h.isLt; have := l.isLt
  omega

/-- The product of the two digit indicators is the indicator of w = 16·h + l: it is 1 exactly when both digits
    match, and a product with a zero factor is zero. -/
theorem onehot_mul (w : BitVec 32) (hw : w.toNat < 256) (h l : Fin 16) :
    ((((IntOp.cmpi .eq (BitVec.ofNat 32 h.val) (IntOp.shrsi .vector w 4#32)).setWidth 32).toInt : ℝ) : EReal)
      * ((((IntOp.cmpi .eq (BitVec.ofNat 32 l.val) (IntOp.andi w 15#32)).setWidth 32).toInt : ℝ) : EReal)
      = if w.toNat = 16 * h.val + l.val then (1 : EReal) else 0 := by
  rw [cmpi_eq_real, cmpi_eq_real]
  by_cases hA : BitVec.ofNat 32 h.val = IntOp.shrsi .vector w 4#32
  · by_cases hB : BitVec.ofNat 32 l.val = IntOp.andi w 15#32
    · rw [if_pos hA, if_pos hB, if_pos ((digits_iff w hw h l).mp ⟨hA, hB⟩), one_mul]
    · rw [if_pos hA, if_neg hB, if_neg (fun e => hB ((digits_iff w hw h l).mpr e).2), mul_zero]
  · rw [if_neg hA, if_neg (fun e => hA ((digits_iff w hw h l).mpr e).1), zero_mul]

/-! ### The flat scatter position -/

/-- The flat scatter position bin + 256·channel, computed on 32-bit words, is that integer: with bin < 256 and
    channel < 3 the sum is below 1024, far from 2³¹, so neither the product nor the sum wraps and the sign bit
    is clear. -/
theorem flat_toInt (x : EReal) (c : Fin 3) :
    (IntOp.addi (bin x) (IntOp.muli (BitVec.ofNat 32 c.val) 256#32)).toInt
      = ((bin x).toNat : Int) + 256 * (c.val : Int) := by
  have hb := bin_toNat_lt x
  have hc := c.isLt
  have hN : (IntOp.addi (bin x) (IntOp.muli (BitVec.ofNat 32 c.val) 256#32)).toNat
      = (bin x).toNat + 256 * c.val := by
    rw [IntOp.addi, IntOp.muli, BitVec.toNat_add, BitVec.toNat_mul, BitVec.toNat_ofNat]
    show ((bin x).toNat + c.val % 2 ^ 32 * 256 % 2 ^ 32) % 2 ^ 32 = _
    omega
  rw [BitVec.toInt_eq_toNat_of_lt (by omega), hN]
  push_cast; ring

/-- A flat position determines its channel and its bin: bin < 256 makes bin + 256·c' the base-256 expansion. -/
theorem flat_eq_iff (x : EReal) (c c' : Fin 3) (v : Fin 256) :
    ((bin x).toNat : Int) + 256 * (c'.val : Int) = ((256 * c.val + v.val : Nat) : Int)
      ↔ (c' = c ∧ (bin x).toNat = v.val) := by
  have hb := bin_toNat_lt x
  have := c.isLt; have := c'.isLt; have := v.isLt
  constructor
  · intro e
    refine ⟨Fin.ext ?_, ?_⟩ <;> omega
  · rintro ⟨rfl, e⟩
    omega

/-- A position that is not negative is left alone by the correction that adds the length to negative ones: the
    signed test "w < 0" answers the one-bit word 0, which is not 1. -/
theorem wrap_id (w : BitVec 32) (h0 : 0 ≤ w.toInt) :
    (if IntOp.cmpi .slt w 0#32 = 1 then IntOp.addi w 768#32 else w) = w := by
  have hs : w.slt 0#32 = false := by
    rw [BitVec.slt]; simpa using h0
  rw [if_neg]
  rw [IntOp.cmpi, hs]; decide

/-! ### Regrouping the sum over all pixels

One side visits the pixels as (half of the batch g, grid point s, pixel k of a 256-row block): the point
s = 2·b + t names the image b within the half and the upper or lower half t of its rows, and k = 512·row + column
within the block. The map (g, s, k) ↦ (16·g + s / 2, 256·(s mod 2) + k / 512, k mod 512) is a bijection onto
(image, row, column), with inverse (n, y, z) ↦ (n / 16, 2·(n mod 16) + y / 256, 512·(y mod 256) + z); a sum over
all pixels may therefore be taken in either order. Only quotient-and-remainder arithmetic is used: no index set
is ever listed. -/

/-- The bijection between (half, grid point, pixel of a block) and (image, row, column). -/
def regroupEquiv : Fin 2 × Fin 32 × Fin 131072 ≃ Fin 32 × Fin 512 × Fin 512 where
  toFun p :=
    (⟨16 * p.1.val + p.2.1.val / 2, by have := p.1.isLt; have := p.2.1.isLt; omega⟩,
     ⟨256 * (p.2.1.val % 2) + p.2.2.val / 512, by have := p.2.2.isLt; omega⟩,
     ⟨p.2.2.val % 512, by omega⟩)
  invFun q :=
    (⟨q.1.val / 16, by have := q.1.isLt; omega⟩,
     ⟨2 * (q.1.val % 16) + q.2.1.val / 256, by have := q.2.1.isLt; omega⟩,
     ⟨512 * (q.2.1.val % 256) + q.2.2.val, by have := q.2.1.isLt; have := q.2.2.isLt; omega⟩)
  left_inv := by
    rintro ⟨g, s, k⟩
    have := g.isLt; have := s.isLt; have := k.isLt
    refine Prod.ext (Fin.ext ?_) (Prod.ext (Fin.ext ?_) (Fin.ext ?_)) <;> dsimp only <;> omega
  right_inv := by
    rintro ⟨n, y, z⟩
    have := n.isLt; have := y.isLt; have := z.isLt
    refine Prod.ext (Fin.ext ?_) (Prod.ext (Fin.ext ?_) (Fin.ext ?_)) <;> dsimp only <;> omega

/-- The sum over (half, grid point, pixel of a block) of a function of the pixel's (image, row, column) is the
    sum over (image, row, column): merge each triple sum into one sum over the product, and carry it across the
    bijection. -/
theorem regroup {β : Type*} [AddCommMonoid β] (F : Fin 32 → Fin 512 → Fin 512 → β) :
    (∑ g : Fin 2, ∑ s : Fin 32, ∑ k : Fin 131072,
        F ⟨16 * g.val + s.val / 2, by omega⟩ ⟨256 * (s.val % 2) + k.val / 512, by omega⟩ ⟨k.val % 512, by omega⟩)
      = ∑ n : Fin 32, ∑ y : Fin 512, ∑ z : Fin 512, F n y z := by
  have hL : (∑ p : Fin 2 × Fin 32 × Fin 131072,
        F (regroupEquiv p).1 (regroupEquiv p).2.1 (regroupEquiv p).2.2)
      = ∑ g : Fin 2, ∑ s : Fin 32, ∑ k : Fin 131072,
        F ⟨16 * g.val + s.val / 2, by omega⟩ ⟨256 * (s.val % 2) + k.val / 512, by omega⟩ ⟨k.val % 512, by omega⟩ := by
    rw [Fintype.sum_prod_type]
    refine Finset.sum_congr rfl fun g _ => ?_
    rw [Fintype.sum_prod_type]
    exact Finset.sum_congr rfl fun s _ => Finset.sum_congr rfl fun k _ => rfl
  have hR : (∑ q : Fin 32 × Fin 512 × Fin 512, F q.1 q.2.1 q.2.2)
      = ∑ n : Fin 32, ∑ y : Fin 512, ∑ z : Fin 512, F n y z := by
    rw [Fintype.sum_prod_type]
    refine Finset.sum_congr rfl fun n _ => ?_
    rw [Fintype.sum_prod_type]
  rw [← hL, ← hR]
  exact Fintype.sum_equiv regroupEquiv _ _ fun _ => rfl

end Cert.Hist

end
-- ==== Proof.KPay.lean ====
/-
  The kernel body's arithmetic, read at an index.

  A block is one image's three channels over 256 rows of 512 pixels. The body turns every pixel into its bin word
  (clip to [0, 255], truncate), splits the word into its high and low hexadecimal digits, and lays each channel's
  256·512 = 131072 pixels out along one axis: pixel k of a channel is row k / 512, column k % 512. For a channel
  it then forms two 16 × 131072 tables of zeros and ones — row h of the first marks the pixels whose high digit is
  h, row l of the second those whose low digit is l — and multiplies the first by the transpose of the second:
  entry (h, l) of the product is the number of pixels of that channel in the block whose bin is 16·h + l.
-/
import proofs.«145997_j19834158972940_2_alg».proof.Proof.Gen.KernelIdeal.Skeleton
import proofs.«145997_j19834158972940_2_alg».proof.Proof.Spec
import proofs.«145997_j19834158972940_2_alg».proof.Proof.BinArith
import Idealize.ShloMosaic.Lib.ValueIdx
import Idealize.ShloMosaic.Lib.Pipeline.Value
import Idealize.ShloMosaic.PureOps.Ideal.Laws

noncomputable section

namespace Cert.KHist

open Idealize.ShloMosaic Idealize.ShloMosaic.ValueIdx Cert.KernelIdeal Cert.KernelIdeal.Gen Cert.Hist

/-- Pixel `k` of channel `c` of a block: row `k / 512`, column `k % 512`. -/
def pix (c : Fin 3) (k : Fin 131072) : S1x3x256x512.Idx :=
  ix4 (0 : Fin 1) c (⟨k.val / 512, by have := k.isLt; omega⟩ : Fin 256) (⟨k.val % 512, by omega⟩ : Fin 512)

/-- The block's bin words: at (channel, row, column) the bin of that pixel. -/
theorem bins_apply (blk : Vec Ideal S1x3x256x512 .f32) (c : Fin 3) (y : Fin 256) (z : Fin 512) :
    k0_pay6 (F := Ideal) blk (ix3 c y z) = bin (blk (ix4 (0 : Fin 1) c y z)) := by
  unfold k0_pay6 bin
  show Ideal.fptosi 32 (min (Ideal.ofBits .f32 0x437F0000#32) (max (Ideal.ofBits .f32 0x00000000#32)
      (shapeCast S3x256x512 blk _ (ix3 c y z)))) = _
  rw [shapeCast_apply blk _ (ix3 c y z) (ix4 (0 : Fin 1) c y z)
    (by rw [Shape.rowMajor_val_four, Shape.rowMajor_val_three]; simp)]

/-- The high digits, laid out per channel along the pixel axis. -/
theorem hi_apply (blk : Vec Ideal S1x3x256x512 .f32) (c : Fin 3) (k : Fin 131072) :
    k0_pay7 (F := Ideal) blk (ix2 c k) = IntOp.shrsi .vector (bin (blk (pix c k))) 4#32 := by
  unfold k0_pay7
  refine (shapeCast_apply _ _ (ix2 c k)
    (ix3 c (⟨k.val / 512, by have := k.isLt; omega⟩ : Fin 256) (⟨k.val % 512, by omega⟩ : Fin 512)) ?_).trans ?_
  · rw [Shape.rowMajor_val_three, Shape.rowMajor_val_two]
    show (c.val * 256 + k.val / 512) * 512 + k.val % 512 = c.val * 131072 + k.val
    omega
  · show IntOp.shrsi .vector (k0_pay6 (F := Ideal) blk (ix3 c _ _)) 4#32 = _
    rw [bins_apply]; rfl

/-- The low digits, laid out per channel along the pixel axis. -/
theorem lo_apply (blk : Vec Ideal S1x3x256x512 .f32) (c : Fin 3) (k : Fin 131072) :
    k0_pay8 (F := Ideal) blk (ix2 c k) = IntOp.andi (bin (blk (pix c k))) 15#32 := by
  unfold k0_pay8
  refine (shapeCast_apply _ _ (ix2 c k)
    (ix3 c (⟨k.val / 512, by have := k.isLt; omega⟩ : Fin 256) (⟨k.val % 512, by omega⟩ : Fin 512)) ?_).trans ?_
  · rw [Shape.rowMajor_val_three, Shape.rowMajor_val_two]
    show (c.val * 256 + k.val / 512) * 512 + k.val % 512 = c.val * 131072 + k.val
    omega
  · show IntOp.andi (k0_pay6 (F := Ideal) blk (ix3 c _ _)) 15#32 = _
    rw [bins_apply]; rfl

/-! ## A channel's row, the tables of marks, and their product -/

/-- The row of one channel out of the three, along the pixel axis (channel 0). -/
def chanRow0 (v : IVec S3x131072 32) : IVec S1x131072 32 :=
  shapeCast S1x131072 (shapeCast S131072 (extractStridedSlice S1x131072 ![0, 0] v Gen.slices_S3x131072_o0_0_S1x131072)
    Gen.shapeCasts_S1x131072_S131072) Gen.shapeCasts_S131072_S1x131072
/-- Channel 1's row. -/
def chanRow1 (v : IVec S3x131072 32) : IVec S1x131072 32 :=
  shapeCast S1x131072 (shapeCast S131072 (extractStridedSlice S1x131072 ![1, 0] v Gen.slices_S3x131072_o1_0_S1x131072)
    Gen.shapeCasts_S1x131072_S131072) Gen.shapeCasts_S131072_S1x131072
/-- Channel 2's row. -/
def chanRow2 (v : IVec S3x131072 32) : IVec S1x131072 32 :=
  shapeCast S1x131072 (shapeCast S131072 (extractStridedSlice S1x131072 ![2, 0] v Gen.slices_S3x131072_o2_0_S1x131072)
    Gen.shapeCasts_S1x131072_S131072) Gen.shapeCasts_S131072_S1x131072

theorem chanRow0_apply (v : IVec S3x131072 32) (k : Fin 131072) : chanRow0 v (ix2 (0 : Fin 1) k) = v (ix2 (0 : Fin 3) k) := by
  unfold chanRow0
  rw [shapeCast_shapeCast]
  exact extractStridedSlice_apply _ v _ (ix2 (0 : Fin 1) k) (ix2 (0 : Fin 3) k)
    (fun a => by match a with | ⟨0, _⟩ => rfl | ⟨1, _⟩ => simp)
theorem chanRow1_apply (v : IVec S3x131072 32) (k : Fin 131072) : chanRow1 v (ix2 (0 : Fin 1) k) = v (ix2 (1 : Fin 3) k) := by
  unfold chanRow1
  rw [shapeCast_shapeCast]
  exact extractStridedSlice_apply _ v _ (ix2 (0 : Fin 1) k) (ix2 (1 : Fin 3) k)
    (fun a => by match a with | ⟨0, _⟩ => rfl | ⟨1, _⟩ => simp)
theorem chanRow2_apply (v : IVec S3x131072 32) (k : Fin 131072) : chanRow2 v (ix2 (0 : Fin 1) k) = v (ix2 (2 : Fin 3) k) := by
  unfold chanRow2
  rw [shapeCast_shapeCast]
  exact extractStridedSlice_apply _ v _ (ix2 (0 : Fin 1) k) (ix2 (2 : Fin 3) k)
    (fun a => by match a with | ⟨0, _⟩ => rfl | ⟨1, _⟩ => simp)

/-- One mark: 1 when the digit word `w` is `a`, else 0, as an extended real. -/
def mark (a : Fin 16) (w : BitVec 32) : EReal :=
  ((((IntOp.cmpi .eq (BitVec.ofNat 32 a.val) w).setWidth 32).toInt : ℝ) : EReal)

/-- The table of marks of a row of digit words: entry (a, k) marks whether pixel k's digit is a. -/
def marks (row : IVec S1x131072 32) : FVec Ideal S16x131072 .bf16 :=
  truncf .bf16 (sitofp .f32 (extui 32 (cmpi .eq
    (broadcastTo S16x131072 (iota .tc S16x1 32 [0] Gen.iota_S16x1_d0_w32) Gen.broadcasts_S16x1_S16x131072)
    (broadcastTo S16x131072 row Gen.broadcasts_S1x131072_S16x131072)) Gen.natLt_1_32)) Gen.bitsLt_bf16_f32

theorem marks_apply (row : IVec S1x131072 32) (a : Fin 16) (k : Fin 131072) :
    marks row (ix2 a k) = mark a (row (ix2 (0 : Fin 1) k)) := by
  unfold marks mark
  show ((((IntOp.cmpi .eq (broadcastTo S16x131072 (iota .tc S16x1 32 [0] Gen.iota_S16x1_d0_w32) _ (ix2 a k))
      (broadcastTo S16x131072 row _ (ix2 a k))).setWidth 32).toInt : ℝ) : EReal) = _
  rw [broadcastTo_apply _ _ (ix2 a k) (ix2 a (0 : Fin 1)) (fun b => by match b with | ⟨0, _⟩ => rfl | ⟨1, _⟩ => rfl),
    broadcastTo_apply row _ (ix2 a k) (ix2 (0 : Fin 1) k) (fun b => by match b with | ⟨0, _⟩ => rfl | ⟨1, _⟩ => rfl),
    iota_single_apply]

/-- The contraction of the product: over the pixel axis of both tables. -/
abbrev DOT : DotDims S16x131072 S16x131072 S16x16 := dot_S16x131072_S16x131072_S16x16_1_1_0_0_n_n

theorem lhs_0 (i : S16x16.Idx) (q : DOT.contr.Idx) : (DOT.lhsIdx i q 0).val = (i 0).val := by
  unfold DotDims.lhsIdx
  rw [dif_neg (show ¬(0 : Fin S16x131072.rank) ∈ DOT.lhsBatch by decide),
    dif_pos (show (0 : Fin S16x131072.rank) ∈ DOT.lhsNonContracting by decide)]
  rfl
theorem lhs_1 (i : S16x16.Idx) (q : DOT.contr.Idx) : (DOT.lhsIdx i q 1).val = (q ⟨0, by decide⟩).val :=
  DOT.lhsIdx_val_of_single rfl i q
theorem rhs_0 (i : S16x16.Idx) (q : DOT.contr.Idx) : (DOT.rhsIdx i q 0).val = (i 1).val := by
  unfold DotDims.rhsIdx
  rw [dif_neg (show ¬(0 : Fin S16x131072.rank) ∈ DOT.rhsBatch by decide),
    dif_pos (show (0 : Fin S16x131072.rank) ∈ DOT.rhsNonContracting by decide)]
  rfl
theorem rhs_1 (i : S16x16.Idx) (q : DOT.contr.Idx) : (DOT.rhsIdx i q 1).val = (q ⟨0, by decide⟩).val :=
  DOT.rhsIdx_val_of_single rfl i q

/-- The product of the two tables of marks into a zero table: entry (h, l) is the sum over the pixels of the
    product of the two marks — the number of pixels whose digit pair is (h, l). -/
def pairCount (hi lo : IVec S1x131072 32) : FVec Ideal S16x16 .f32 :=
  matmul DOT none (marks hi) (marks lo) (constant S16x16 .f32 0x00000000#32)

theorem pairCount_apply (hi lo : IVec S1x131072 32) (h l : Fin 16) :
    pairCount hi lo (ix2 h l) = ∑ k : Fin 131072, mark h (hi (ix2 (0 : Fin 1) k)) * mark l (lo (ix2 (0 : Fin 1) k)) := by
  unfold pairCount
  refine (Ideal.matmul_constant_zero_apply DOT none (marks hi) (marks lo) (ix2 h l)).trans ?_
  rw [← Equiv.sum_comp (contrEquiv1 DOT 131072 rfl rfl).symm]
  refine Finset.sum_congr rfl fun k _ => ?_
  have hk := contrEquiv1_symm_val DOT 131072 rfl rfl k
  have el : DOT.lhsIdx (ix2 h l) ((contrEquiv1 DOT 131072 rfl rfl).symm k) = ix2 h k := funext fun a => Fin.ext (by
    match a with
    | ⟨0, _⟩ => exact lhs_0 _ _
    | ⟨1, _⟩ => exact (lhs_1 _ _).trans hk)
  have er : DOT.rhsIdx (ix2 h l) ((contrEquiv1 DOT 131072 rfl rfl).symm k) = ix2 l k := funext fun a => Fin.ext (by
    match a with
    | ⟨0, _⟩ => exact rhs_0 _ _
    | ⟨1, _⟩ => exact (rhs_1 _ _).trans hk)
  rw [el, er, marks_apply, marks_apply]

/-! ## The six accumulating stores, read at an index -/

/-- The number of pixels of channel `c` in a block whose bin is `16·h + l`. -/
def blockCount (blk : Vec Ideal S1x3x256x512 .f32) (c : Fin 3) (h l : Fin 16) : EReal :=
  ∑ k : Fin 131072, if (bin (blk (pix c k))).toNat = 16 * h.val + l.val then (1 : EReal) else 0

/-- The digit words of the second image batch's block are those of the first's, as functions of the block. -/
theorem bins2_eq : @k0_pay15 Ideal _ = @k0_pay6 Ideal _ := rfl
theorem hi2_eq : @k0_pay16 Ideal _ = @k0_pay7 Ideal _ := rfl
theorem lo2_eq : @k0_pay17 Ideal _ = @k0_pay8 Ideal _ := rfl

/-- The product of a channel's two tables of marks counts the block's pixels by digit pair, that is by bin. -/
theorem pairCount_chan0 (blk : Vec Ideal S1x3x256x512 .f32) (h l : Fin 16) :
    pairCount (chanRow0 (k0_pay7 (F := Ideal) blk)) (chanRow0 (k0_pay8 (F := Ideal) blk)) (ix2 h l) = blockCount blk 0 h l := by
  rw [pairCount_apply]; unfold blockCount
  refine Finset.sum_congr rfl fun k _ => ?_
  rw [chanRow0_apply, chanRow0_apply, hi_apply, lo_apply]
  exact onehot_mul (bin (blk (pix 0 k))) (bin_toNat_lt _) h l
theorem pairCount_chan1 (blk : Vec Ideal S1x3x256x512 .f32) (h l : Fin 16) :
    pairCount (chanRow1 (k0_pay7 (F := Ideal) blk)) (chanRow1 (k0_pay8 (F := Ideal) blk)) (ix2 h l) = blockCount blk 1 h l := by
  rw [pairCount_apply]; unfold blockCount
  refine Finset.sum_congr rfl fun k _ => ?_
  rw [chanRow1_apply, chanRow1_apply, hi_apply, lo_apply]
  exact onehot_mul (bin (blk (pix 1 k))) (bin_toNat_lt _) h l
theorem pairCount_chan2 (blk : Vec Ideal S1x3x256x512 .f32) (h l : Fin 16) :
    pairCount (chanRow2 (k0_pay7 (F := Ideal) blk)) (chanRow2 (k0_pay8 (F := Ideal) blk)) (ix2 h l) = blockCount blk 2 h l := by
  rw [pairCount_apply]; unfold blockCount
  refine Finset.sum_congr rfl fun k _ => ?_
  rw [chanRow2_apply, chanRow2_apply, hi_apply, lo_apply]
  exact onehot_mul (bin (blk (pix 2 k))) (bin_toNat_lt _) h l

/-- Adding a 16 × 16 table into a [1, 16, 16] slice of the running counts: entry by entry. -/
theorem accum_apply (P : FVec Ideal S16x16 .f32) (a : Vec Ideal S1x16x16 .f32) (p q : Fin 16) :
    k0_pay10 (F := Ideal) P a (ix3 (0 : Fin 1) p q) = a (ix3 (0 : Fin 1) p q) + P (ix2 p q) := by
  unfold k0_pay10
  refine (shapeCast_apply _ _ (ix3 (0 : Fin 1) p q) (ix2 p q)
    (by rw [Shape.rowMajor_val_two, Shape.rowMajor_val_three]; simp)).trans ?_
  show shapeCast S16x16 a _ (ix2 p q) + P (ix2 p q) = _
  rw [shapeCast_apply a _ (ix2 p q) (ix3 (0 : Fin 1) p q)
    (by rw [Shape.rowMajor_val_two, Shape.rowMajor_val_three]; simp)]

/-- The printed stores are this addition of a channel's product of marks. -/
theorem store0_eq (blk : Vec Ideal S1x3x256x512 .f32) :
    k0_pay9 (F := Ideal) blk = pairCount (chanRow0 (k0_pay7 blk)) (chanRow0 (k0_pay8 blk)) := rfl
theorem store1_eq (v18 v21 : IVec S3x131072 32) (a : Vec Ideal S1x16x16 .f32) :
    k0_pay11 (F := Ideal) (iota .tc S16x1 32 [0] Gen.iota_S16x1_d0_w32) v18 v21 a
      = k0_pay10 (pairCount (chanRow1 v18) (chanRow1 v21)) a := rfl
theorem store2_eq (v18 v21 : IVec S3x131072 32) (a : Vec Ideal S1x16x16 .f32) :
    k0_pay14 (F := Ideal) (k0_pay12 (iota .tc S16x1 32 [0] Gen.iota_S16x1_d0_w32) v18)
        (k0_pay13 (iota .tc S16x1 32 [0] Gen.iota_S16x1_d0_w32) v21) a
      = k0_pay10 (pairCount (chanRow2 v18) (chanRow2 v21)) a := rfl
theorem store0'_eq (blk : Vec Ideal S1x3x256x512 .f32) :
    k0_pay18 (F := Ideal) (iota .tc S16x1 32 [0] Gen.iota_S16x1_d0_w32) blk
      = pairCount (chanRow0 (k0_pay7 blk)) (chanRow0 (k0_pay8 blk)) := rfl
theorem accum'_eq : @k0_pay19 Ideal _ = @k0_pay10 Ideal _ := rfl
theorem store1'_eq (v18 v21 : IVec S3x131072 32) (a : Vec Ideal S1x16x16 .f32) :
    k0_pay20 (F := Ideal) (iota .tc S16x1 32 [0] Gen.iota_S16x1_d0_w32) v18 v21 a
      = k0_pay10 (pairCount (chanRow1 v18) (chanRow1 v21)) a := rfl
theorem store2'_eq (v18 v21 : IVec S3x131072 32) (a : Vec Ideal S1x16x16 .f32) :
    k0_pay1 (F := Ideal) (k0_pay21 (iota .tc S16x1 32 [0] Gen.iota_S16x1_d0_w32) v18)
        (k0_pay22 (iota .tc S16x1 32 [0] Gen.iota_S16x1_d0_w32) v21) a
      = k0_pay10 (pairCount (chanRow2 v18) (chanRow2 v21)) a := rfl

end Cert.KHist

end
-- ==== Proof.KAcc.lean ====
/-
  What one grid point leaves in the running counts.

  The kernel keeps, for each of the two image batches, a 3 × 16 × 16 table of running counts. At a grid point it
  loads one block of each batch and, channel by channel, adds that block's table of pixel counts by digit pair
  into the channel's 16 × 16 slice. At the first point of a half of the batch the tables are set to zero first;
  at the last point they are also copied out. So whatever the case, entry (c, h, l) after the point is the entry
  before it (zero at a first point) plus the number of pixels of channel c in the block whose bin is 16·h + l.
-/
import proofs.«145997_j19834158972940_2_alg».proof.Proof.Gen.KernelIdeal.Frame
import proofs.«145997_j19834158972940_2_alg».proof.Proof.KPay
import Idealize.ShloMosaic.Lib.Pipeline.Value

set_option maxRecDepth 16384

noncomputable section

namespace Cert.KHist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Hist

theorem hz4 : (![0, 0, 0, 0] : Fin 4 → Nat) = fun _ => 0 := by funext a; fin_cases a <;> rfl
theorem hz3 : (![0, 0, 0] : Fin 3 → Nat) = fun _ => 0 := by funext a; fin_cases a <;> rfl

/-- One channel's slice of the running counts after the addition: the payload of the store into slice `c0` is,
    at every entry of the slice, the old entry plus the block's count. -/
theorem tile_ok (c0 : Nat) (hc0 : c0 < 3)
    (inb : ∀ a, (![c0, 0, 0] : Fin 3 → Nat) a + (![1, 16, 16] : Fin 3 → Nat) a ≤ S3x16x16.size a)
    (P : FVec Ideal S16x16 .f32) (xs : Vec Ideal S3x16x16 .f32) (blk : Vec Ideal S1x3x256x512 .f32)
    (hP : ∀ h l : Fin 16, P (ix2 h l) = blockCount blk ⟨c0, hc0⟩ h l) (u : Fin 1) (p q : Fin 16) :
    k0_pay10 (F := Ideal) P (View.ld xs (Rect.unit (s := S3x16x16) ![c0, 0, 0] ![1, 16, 16] inb)) (ix3 u p q)
      = (fun y : S3x16x16.Idx => xs y + blockCount blk (y 0) (y 1) (y 2))
          ((Rect.unit (s := S3x16x16) ![c0, 0, 0] ![1, 16, 16] inb).emb (ix3 u p q)) := by
  obtain rfl : u = 0 := Subsingleton.elim _ _
  rw [accum_apply, hP]
  have e0 : ((Rect.unit (s := S3x16x16) ![c0, 0, 0] ![1, 16, 16] inb).emb (ix3 (0 : Fin 1) p q)) 0 = ⟨c0, hc0⟩ :=
    Fin.ext (by show c0 + 1 * 0 = c0; omega)
  have e1 : ((Rect.unit (s := S3x16x16) ![c0, 0, 0] ![1, 16, 16] inb).emb (ix3 (0 : Fin 1) p q)) 1 = p :=
    Fin.ext (by show 0 + 1 * p.val = p.val; omega)
  have e2 : ((Rect.unit (s := S3x16x16) ![c0, 0, 0] ![1, 16, 16] inb).emb (ix3 (0 : Fin 1) p q)) 2 = q :=
    Fin.ext (by show 0 + 1 * q.val = q.val; omega)
  show xs _ + _ = xs _ + _
  rw [e0, e1, e2]
  rfl

/-- The second batch's digit words are the first's, so its products of marks count its block the same way. -/
theorem pairCount_chan1' (blk : Vec Ideal S1x3x256x512 .f32) (h l : Fin 16) :
    pairCount (chanRow1 (k0_pay16 (F := Ideal) blk)) (chanRow1 (k0_pay17 (F := Ideal) blk)) (ix2 h l) = blockCount blk 1 h l :=
  pairCount_chan1 blk h l
theorem pairCount_chan2' (blk : Vec Ideal S1x3x256x512 .f32) (h l : Fin 16) :
    pairCount (chanRow2 (k0_pay16 (F := Ideal) blk)) (chanRow2 (k0_pay17 (F := Ideal) blk)) (ix2 h l) = blockCount blk 2 h l :=
  pairCount_chan2 blk h l

/-- A middle point, first batch: every entry grows by the block's count. -/
theorem sout_B_0_apply (c : Dev nD) (i : grid0.Coords) (arg3 : Memref sig .tc .vmem S1x3x256x512 .f32) (harg3 : arg3.IsWhole) (arg4 : Memref sig .tc .vmem S1x3x256x512 .f32) (harg4 : arg4.IsWhole) (arg5 : Memref sig .tc .vmem S1x3x16x16 .f32) (harg5 : arg5.IsWhole) (arg6 : Memref sig .tc .vmem S1x3x16x16 .f32) (harg6 : arg6.IsWhole) (arg7 : Memref sig .tc .vmem S3x16x16 .f32) (harg7 : arg7.IsWhole) (arg8 : Memref sig .tc .vmem S3x16x16 .f32) (harg8 : arg8.IsWhole) (hc0 : ¬cond0_0 i) (hc1 : ¬cond0_1 i)
    (x0 : Vec Ideal S1x3x256x512 .f32) (x1 : Vec Ideal S1x3x256x512 .f32) (xs0 : Vec Ideal S3x16x16 .f32) (xs1 : Vec Ideal S3x16x16 .f32)
    (y : S3x16x16.Idx) :
    sout0_B_0 (F := Ideal) c i arg3 harg3 arg4 harg4 arg5 harg5 arg6 harg6 arg7 harg7 arg8 harg8 hc0 hc1 x0 x1 xs0 xs1 y = xs0 y + blockCount x0 (y 0) (y 1) (y 2) := by
  have hcov := scover0_B_0 (F := Ideal) c i arg3 harg3 arg4 harg4 arg5 harg5 arg6 harg6 arg7 harg7 arg8 harg8 hc0 hc1 x0 x1 xs0 xs1 y
  unfold sout0_B_0
  rw [View.read_writes_eq_canon _ _ _ (scover0_B_0 c i arg3 harg3 arg4 harg4 arg5 harg5 arg6 harg6 arg7 harg7 arg8 harg8 hc0 hc1 x0 x1 xs0 xs1)]
  revert hcov
  unfold kernelRun0_B
  dsimp only
  sl_unfold_words
  simp only [View.readAt_eq_ld, harg3.read_unread, harg4.read_unread, harg7.read_unread, harg8.read_unread, View.ld_unit_zero (S := S1x3x256x512) hz4]
  intro hcov
  refine View.canon_apply_of_pieces (fun y : S3x16x16.Idx => xs0 y + blockCount x0 (y 0) (y 1) (y 2)) _ ?_ y hcov
  intro p hp
  simp only [List.mem_cons, List.not_mem_nil, or_false] at hp
  rcases hp with rfl | rfl | rfl
  · intro x
    obtain ⟨u, p, q, rfl⟩ : ∃ (u : Fin 1) (p q : Fin 16), x = ix3 u p q := ⟨x 0, x 1, x 2, eq_ix3 x⟩
    rw [store2_eq]; exact tile_ok 2 (by omega) _ _ xs0 x0 (pairCount_chan2 x0) u p q
  · intro x
    obtain ⟨u, p, q, rfl⟩ : ∃ (u : Fin 1) (p q : Fin 16), x = ix3 u p q := ⟨x 0, x 1, x 2, eq_ix3 x⟩
    rw [store1_eq]; exact tile_ok 1 (by omega) _ _ xs0 x0 (pairCount_chan1 x0) u p q
  · intro x
    obtain ⟨u, p, q, rfl⟩ : ∃ (u : Fin 1) (p q : Fin 16), x = ix3 u p q := ⟨x 0, x 1, x 2, eq_ix3 x⟩
    rw [store0_eq]; exact tile_ok 0 (by omega) _ _ xs0 x0 (pairCount_chan0 x0) u p q

/-- A middle point, second batch. -/
theorem sout_B_1_apply (c : Dev nD) (i : grid0.Coords) (arg3 : Memref sig .tc .vmem S1x3x256x512 .f32) (harg3 : arg3.IsWhole) (arg4 : Memref sig .tc .vmem S1x3x256x512 .f32) (harg4 : arg4.IsWhole) (arg5 : Memref sig .tc .vmem S1x3x16x16 .f32) (harg5 : arg5.IsWhole) (arg6 : Memref sig .tc .vmem S1x3x16x16 .f32) (harg6 : arg6.IsWhole) (arg7 : Memref sig .tc .vmem S3x16x16 .f32) (harg7 : arg7.IsWhole) (arg8 : Memref sig .tc .vmem S3x16x16 .f32) (harg8 : arg8.IsWhole) (hc0 : ¬cond0_0 i) (hc1 : ¬cond0_1 i)
    (x0 : Vec Ideal S1x3x256x512 .f32) (x1 : Vec Ideal S1x3x256x512 .f32) (xs0 : Vec Ideal S3x16x16 .f32) (xs1 : Vec Ideal S3x16x16 .f32)
    (y : S3x16x16.Idx) :
    sout0_B_1 (F := Ideal) c i arg3 harg3 arg4 harg4 arg5 harg5 arg6 harg6 arg7 harg7 arg8 harg8 hc0 hc1 x0 x1 xs0 xs1 y = xs1 y + blockCount x1 (y 0) (y 1) (y 2) := by
  have hcov := scover0_B_1 (F := Ideal) c i arg3 harg3 arg4 harg4 arg5 harg5 arg6 harg6 arg7 harg7 arg8 harg8 hc0 hc1 x0 x1 xs0 xs1 y
  unfold sout0_B_1
  rw [View.read_writes_eq_canon _ _ _ (scover0_B_1 c i arg3 harg3 arg4 harg4 arg5 harg5 arg6 harg6 arg7 harg7 arg8 harg8 hc0 hc1 x0 x1 xs0 xs1)]
  revert hcov
  unfold kernelRun0_B
  dsimp only
  sl_unfold_words
  simp only [View.readAt_eq_ld, harg3.read_unread, harg4.read_unread, harg7.read_unread, harg8.read_unread, View.ld_unit_zero (S := S1x3x256x512) hz4]
  intro hcov
  refine View.canon_apply_of_pieces (fun y : S3x16x16.Idx => xs1 y + blockCount x1 (y 0) (y 1) (y 2)) _ ?_ y hcov
  intro p hp
  simp only [List.mem_cons, List.not_mem_nil, or_false] at hp
  rcases hp with rfl | rfl | rfl
  · intro x
    obtain ⟨u, p, q, rfl⟩ : ∃ (u : Fin 1) (p q : Fin 16), x = ix3 u p q := ⟨x 0, x 1, x 2, eq_ix3 x⟩
    rw [store2'_eq]; exact tile_ok 2 (by omega) _ _ xs1 x1 (pairCount_chan2' x1) u p q
  · intro x
    obtain ⟨u, p, q, rfl⟩ : ∃ (u : Fin 1) (p q : Fin 16), x = ix3 u p q := ⟨x 0, x 1, x 2, eq_ix3 x⟩
    rw [store1'_eq]; exact tile_ok 1 (by omega) _ _ xs1 x1 (pairCount_chan1' x1) u p q
  · intro x
    obtain ⟨u, p, q, rfl⟩ : ∃ (u : Fin 1) (p q : Fin 16), x = ix3 u p q := ⟨x 0, x 1, x 2, eq_ix3 x⟩
    rw [accum'_eq, store0'_eq]; exact tile_ok 0 (by omega) _ _ xs1 x1 (pairCount_chan0 x1) u p q

/-- A last point, first batch: the same growth (the table is copied out afterwards). -/
theorem sout_C_0_apply (c : Dev nD) (i : grid0.Coords) (arg3 : Memref sig .tc .vmem S1x3x256x512 .f32) (harg3 : arg3.IsWhole) (arg4 : Memref sig .tc .vmem S1x3x256x512 .f32) (harg4 : arg4.IsWhole) (arg5 : Memref sig .tc .vmem S1x3x16x16 .f32) (harg5 : arg5.IsWhole) (arg6 : Memref sig .tc .vmem S1x3x16x16 .f32) (harg6 : arg6.IsWhole) (arg7 : Memref sig .tc .vmem S3x16x16 .f32) (harg7 : arg7.IsWhole) (arg8 : Memref sig .tc .vmem S3x16x16 .f32) (harg8 : arg8.IsWhole) (hc0 : ¬cond0_0 i) (hc1 : cond0_1 i)
    (x0 : Vec Ideal S1x3x256x512 .f32) (x1 : Vec Ideal S1x3x256x512 .f32) (xs0 : Vec Ideal S3x16x16 .f32) (xs1 : Vec Ideal S3x16x16 .f32)
    (y : S3x16x16.Idx) :
    sout0_C_0 (F := Ideal) c i arg3 harg3 arg4 harg4 arg5 harg5 arg6 harg6 arg7 harg7 arg8 harg8 hc0 hc1 x0 x1 xs0 xs1 y = xs0 y + blockCount x0 (y 0) (y 1) (y 2) := by
  have hcov := scover0_C_0 (F := Ideal) c i arg3 harg3 arg4 harg4 arg5 harg5 arg6 harg6 arg7 harg7 arg8 harg8 hc0 hc1 x0 x1 xs0 xs1 y
  unfold sout0_C_0
  rw [View.read_writes_eq_canon _ _ _ (scover0_C_0 c i arg3 harg3 arg4 harg4 arg5 harg5 arg6 harg6 arg7 harg7 arg8 harg8 hc0 hc1 x0 x1 xs0 xs1)]
  revert hcov
  unfold kernelRun0_C
  dsimp only
  sl_unfold_words
  simp only [View.readAt_eq_ld, harg3.read_unread, harg4.read_unread, harg7.read_unread, harg8.read_unread, View.ld_unit_zero (S := S1x3x256x512) hz4]
  intro hcov
  refine View.canon_apply_of_pieces (fun y : S3x16x16.Idx => xs0 y + blockCount x0 (y 0) (y 1) (y 2)) _ ?_ y hcov
  intro p hp
  simp only [List.mem_cons, List.not_mem_nil, or_false] at hp
  rcases hp with rfl | rfl | rfl
  · intro x
    obtain ⟨u, p, q, rfl⟩ : ∃ (u : Fin 1) (p q : Fin 16), x = ix3 u p q := ⟨x 0, x 1, x 2, eq_ix3 x⟩
    rw [store2_eq]; exact tile_ok 2 (by omega) _ _ xs0 x0 (pairCount_chan2 x0) u p q
  · intro x
    obtain ⟨u, p, q, rfl⟩ : ∃ (u : Fin 1) (p q : Fin 16), x = ix3 u p q := ⟨x 0, x 1, x 2, eq_ix3 x⟩
    rw [store1_eq]; exact tile_ok 1 (by omega) _ _ xs0 x0 (pairCount_chan1 x0) u p q
  · intro x
    obtain ⟨u, p, q, rfl⟩ : ∃ (u : Fin 1) (p q : Fin 16), x = ix3 u p q := ⟨x 0, x 1, x 2, eq_ix3 x⟩
    rw [store0_eq]; exact tile_ok 0 (by omega) _ _ xs0 x0 (pairCount_chan0 x0) u p q

/-- A last point, second batch. -/
theorem sout_C_1_apply (c : Dev nD) (i : grid0.Coords) (arg3 : Memref sig .tc .vmem S1x3x256x512 .f32) (harg3 : arg3.IsWhole) (arg4 : Memref sig .tc .vmem S1x3x256x512 .f32) (harg4 : arg4.IsWhole) (arg5 : Memref sig .tc .vmem S1x3x16x16 .f32) (harg5 : arg5.IsWhole) (arg6 : Memref sig .tc .vmem S1x3x16x16 .f32) (harg6 : arg6.IsWhole) (arg7 : Memref sig .tc .vmem S3x16x16 .f32) (harg7 : arg7.IsWhole) (arg8 : Memref sig .tc .vmem S3x16x16 .f32) (harg8 : arg8.IsWhole) (hc0 : ¬cond0_0 i) (hc1 : cond0_1 i)
    (x0 : Vec Ideal S1x3x256x512 .f32) (x1 : Vec Ideal S1x3x256x512 .f32) (xs0 : Vec Ideal S3x16x16 .f32) (xs1 : Vec Ideal S3x16x16 .f32)
    (y : S3x16x16.Idx) :
    sout0_C_1 (F := Ideal) c i arg3 harg3 arg4 harg4 arg5 harg5 arg6 harg6 arg7 harg7 arg8 harg8 hc0 hc1 x0 x1 xs0 xs1 y = xs1 y + blockCount x1 (y 0) (y 1) (y 2) := by
  have hcov := scover0_C_1 (F := Ideal) c i arg3 harg3 arg4 harg4 arg5 harg5 arg6 harg6 arg7 harg7 arg8 harg8 hc0 hc1 x0 x1 xs0 xs1 y
  unfold sout0_C_1
  rw [View.read_writes_eq_canon _ _ _ (scover0_C_1 c i arg3 harg3 arg4 harg4 arg5 harg5 arg6 harg6 arg7 harg7 arg8 harg8 hc0 hc1 x0 x1 xs0 xs1)]
  revert hcov
  unfold kernelRun0_C
  dsimp only
  sl_unfold_words
  simp only [View.readAt_eq_ld, harg3.read_unread, harg4.read_unread, harg7.read_unread, harg8.read_unread, View.ld_unit_zero (S := S1x3x256x512) hz4]
  intro hcov
  refine View.canon_apply_of_pieces (fun y : S3x16x16.Idx => xs1 y + blockCount x1 (y 0) (y 1) (y 2)) _ ?_ y hcov
  intro p hp
  simp only [List.mem_cons, List.not_mem_nil, or_false] at hp
  rcases hp with rfl | rfl | rfl
  · intro x
    obtain ⟨u, p, q, rfl⟩ : ∃ (u : Fin 1) (p q : Fin 16), x = ix3 u p q := ⟨x 0, x 1, x 2, eq_ix3 x⟩
    rw [store2'_eq]; exact tile_ok 2 (by omega) _ _ xs1 x1 (pairCount_chan2' x1) u p q
  · intro x
    obtain ⟨u, p, q, rfl⟩ : ∃ (u : Fin 1) (p q : Fin 16), x = ix3 u p q := ⟨x 0, x 1, x 2, eq_ix3 x⟩
    rw [store1'_eq]; exact tile_ok 1 (by omega) _ _ xs1 x1 (pairCount_chan1' x1) u p q
  · intro x
    obtain ⟨u, p, q, rfl⟩ : ∃ (u : Fin 1) (p q : Fin 16), x = ix3 u p q := ⟨x 0, x 1, x 2, eq_ix3 x⟩
    rw [accum'_eq, store0'_eq]; exact tile_ok 0 (by omega) _ _ xs1 x1 (pairCount_chan0 x1) u p q

/-- At a last point the first batch's output block is the freshly grown table. -/
theorem out_C_2_apply (c : Dev nD) (i : grid0.Coords) (arg3 : Memref sig .tc .vmem S1x3x256x512 .f32) (harg3 : arg3.IsWhole) (arg4 : Memref sig .tc .vmem S1x3x256x512 .f32) (harg4 : arg4.IsWhole) (arg5 : Memref sig .tc .vmem S1x3x16x16 .f32) (harg5 : arg5.IsWhole) (arg6 : Memref sig .tc .vmem S1x3x16x16 .f32) (harg6 : arg6.IsWhole) (arg7 : Memref sig .tc .vmem S3x16x16 .f32) (harg7 : arg7.IsWhole) (arg8 : Memref sig .tc .vmem S3x16x16 .f32) (harg8 : arg8.IsWhole) (hc0 : ¬cond0_0 i) (hc1 : cond0_1 i)
    (x0 : Vec Ideal S1x3x256x512 .f32) (x1 : Vec Ideal S1x3x256x512 .f32) (xs0 : Vec Ideal S3x16x16 .f32) (xs1 : Vec Ideal S3x16x16 .f32)
    (c' : Fin 3) (h l : Fin 16) :
    out0_C_2 (F := Ideal) c i arg3 harg3 arg4 harg4 arg5 harg5 arg6 harg6 arg7 harg7 arg8 harg8 hc0 hc1 x0 x1 xs0 xs1 (ix4 (0 : Fin 1) c' h l)
      = xs0 (ix3 c' h l) + blockCount x0 c' h l := by
  have hcov := scover0_C_0 (F := Ideal) c i arg3 harg3 arg4 harg4 arg5 harg5 arg6 harg6 arg7 harg7 arg8 harg8 hc0 hc1 x0 x1 xs0 xs1
  unfold out0_C_2
  rw [View.read_writes_eq_canon _ _ _ (cover0_C_2 c i arg3 harg3 arg4 harg4 arg5 harg5 arg6 harg6 arg7 harg7 arg8 harg8 hc0 hc1 x0 x1 xs0 xs1)]
  revert hcov
  unfold kernelRun0_C
  dsimp only
  sl_unfold_words
  simp only [View.readAt_eq_ld, harg3.read_unread, harg4.read_unread, harg7.read_unread, harg8.read_unread, View.ld_unit_zero (S := S1x3x256x512) hz4]
  intro hcov
  rw [View.canon_unit_zero hz4]
  unfold k0_pay2
  refine (shapeCast_apply _ _ (ix4 (0 : Fin 1) c' h l) (ix3 c' h l)
    (by rw [Shape.rowMajor_val_three, Shape.rowMajor_val_four]; simp)).trans ?_
  rw [View.readCov_eq_canon_ld _ _ _ hcov, View.ld_unit_zero hz3]
  refine View.canon_apply_of_pieces (fun y : S3x16x16.Idx => xs0 y + blockCount x0 (y 0) (y 1) (y 2)) _ ?_ (ix3 c' h l) (hcov _)
  intro p hp
  simp only [List.mem_cons, List.not_mem_nil, or_false] at hp
  rcases hp with rfl | rfl | rfl
  · intro x
    obtain ⟨u, p, q, rfl⟩ : ∃ (u : Fin 1) (p q : Fin 16), x = ix3 u p q := ⟨x 0, x 1, x 2, eq_ix3 x⟩
    rw [store2_eq]; exact tile_ok 2 (by omega) _ _ xs0 x0 (pairCount_chan2 x0) u p q
  · intro x
    obtain ⟨u, p, q, rfl⟩ : ∃ (u : Fin 1) (p q : Fin 16), x = ix3 u p q := ⟨x 0, x 1, x 2, eq_ix3 x⟩
    rw [store1_eq]; exact tile_ok 1 (by omega) _ _ xs0 x0 (pairCount_chan1 x0) u p q
  · intro x
    obtain ⟨u, p, q, rfl⟩ : ∃ (u : Fin 1) (p q : Fin 16), x = ix3 u p q := ⟨x 0, x 1, x 2, eq_ix3 x⟩
    rw [store0_eq]; exact tile_ok 0 (by omega) _ _ xs0 x0 (pairCount_chan0 x0) u p q

/-- At a last point the second batch's output block is the freshly grown table. -/
theorem out_C_3_apply (c : Dev nD) (i : grid0.Coords) (arg3 : Memref sig .tc .vmem S1x3x256x512 .f32) (harg3 : arg3.IsWhole) (arg4 : Memref sig .tc .vmem S1x3x256x512 .f32) (harg4 : arg4.IsWhole) (arg5 : Memref sig .tc .vmem S1x3x16x16 .f32) (harg5 : arg5.IsWhole) (arg6 : Memref sig .tc .vmem S1x3x16x16 .f32) (harg6 : arg6.IsWhole) (arg7 : Memref sig .tc .vmem S3x16x16 .f32) (harg7 : arg7.IsWhole) (arg8 : Memref sig .tc .vmem S3x16x16 .f32) (harg8 : arg8.IsWhole) (hc0 : ¬cond0_0 i) (hc1 : cond0_1 i)
    (x0 : Vec Ideal S1x3x256x512 .f32) (x1 : Vec Ideal S1x3x256x512 .f32) (xs0 : Vec Ideal S3x16x16 .f32) (xs1 : Vec Ideal S3x16x16 .f32)
    (c' : Fin 3) (h l : Fin 16) :
    out0_C_3 (F := Ideal) c i arg3 harg3 arg4 harg4 arg5 harg5 arg6 harg6 arg7 harg7 arg8 harg8 hc0 hc1 x0 x1 xs0 xs1 (ix4 (0 : Fin 1) c' h l)
      = xs1 (ix3 c' h l) + blockCount x1 c' h l := by
  have hcov := scover0_C_1 (F := Ideal) c i arg3 harg3 arg4 harg4 arg5 harg5 arg6 harg6 arg7 harg7 arg8 harg8 hc0 hc1 x0 x1 xs0 xs1
  unfold out0_C_3
  rw [View.read_writes_eq_canon _ _ _ (cover0_C_3 c i arg3 harg3 arg4 harg4 arg5 harg5 arg6 harg6 arg7 harg7 arg8 harg8 hc0 hc1 x0 x1 xs0 xs1)]
  revert hcov
  unfold kernelRun0_C
  dsimp only
  sl_unfold_words
  simp only [View.readAt_eq_ld, harg3.read_unread, harg4.read_unread, harg7.read_unread, harg8.read_unread, View.ld_unit_zero (S := S1x3x256x512) hz4]
  intro hcov
  rw [View.canon_unit_zero hz4]
  unfold k0_pay3
  refine (shapeCast_apply _ _ (ix4 (0 : Fin 1) c' h l) (ix3 c' h l)
    (by rw [Shape.rowMajor_val_three, Shape.rowMajor_val_four]; simp)).trans ?_
  rw [View.readCov_eq_canon_ld _ _ _ hcov, View.ld_unit_zero hz3]
  refine View.canon_apply_of_pieces (fun y : S3x16x16.Idx => xs1 y + blockCount x1 (y 0) (y 1) (y 2)) _ ?_ (ix3 c' h l) (hcov _)
  intro p hp
  simp only [List.mem_cons, List.not_mem_nil, or_false] at hp
  rcases hp with rfl | rfl | rfl
  · intro x
    obtain ⟨u, p, q, rfl⟩ : ∃ (u : Fin 1) (p q : Fin 16), x = ix3 u p q := ⟨x 0, x 1, x 2, eq_ix3 x⟩
    rw [store2'_eq]; exact tile_ok 2 (by omega) _ _ xs1 x1 (pairCount_chan2' x1) u p q
  · intro x
    obtain ⟨u, p, q, rfl⟩ : ∃ (u : Fin 1) (p q : Fin 16), x = ix3 u p q := ⟨x 0, x 1, x 2, eq_ix3 x⟩
    rw [store1'_eq]; exact tile_ok 1 (by omega) _ _ xs1 x1 (pairCount_chan1' x1) u p q
  · intro x
    obtain ⟨u, p, q, rfl⟩ : ∃ (u : Fin 1) (p q : Fin 16), x = ix3 u p q := ⟨x 0, x 1, x 2, eq_ix3 x⟩
    rw [accum'_eq, store0'_eq]; exact tile_ok 0 (by omega) _ _ xs1 x1 (pairCount_chan0 x1) u p q

/-! ## The first point of a half: the tables are zeroed, then grow -/

/-- The store of zeros over the whole table, as a piece. -/
abbrev zeroPiece (inbZ : ∀ a, (![0, 0, 0] : Fin 3 → Nat) a + (![3, 16, 16] : Fin 3 → Nat) a ≤ S3x16x16.size a)
    (w : FVec Ideal S3x16x16 .f32) : View.Piece (Elt Ideal) S3x16x16 .f32 :=
  ⟨Rect.unit (s := S3x16x16) ![0, 0, 0] ![3, 16, 16] inbZ, w⟩

theorem pay4_zero (y : S3x16x16.Idx) : k0_pay4 (F := Ideal) y = (0 : EReal) := by
  unfold k0_pay4
  rw [shapeCast_self]
  show Ideal.ofBits .f32 0x00000000#32 = 0
  exact ofBits_zero
theorem pay5_zero (y : S3x16x16.Idx) : k0_pay5 (F := Ideal) y = (0 : EReal) := by
  unfold k0_pay5
  rw [shapeCast_self]
  show Ideal.ofBits .f32 0x00000000#32 = 0
  exact ofBits_zero

/-- A slice read right after the zeroing store reads zeros. -/
theorem rz {sig' : RefSig} {κ' : Kind} {sp' : Space} (v : View sig' κ' sp' S3x16x16 .f32)
    (Z : FVec Ideal S3x16x16 .f32) (hZ : ∀ y, Z y = (0 : EReal))
    (inbZ : ∀ a, (![0, 0, 0] : Fin 3 → Nat) a + (![3, 16, 16] : Fin 3 → Nat) a ≤ S3x16x16.size a)
    (c0 : Nat) (inb : ∀ a, (![c0, 0, 0] : Fin 3 → Nat) a + (![1, 16, 16] : Fin 3 → Nat) a ≤ S3x16x16.size a) :
    v.readCov [(⟨Rect.unit (s := S3x16x16) ![0, 0, 0] ![3, 16, 16] inbZ, Z⟩ : View.Piece (Elt Ideal) S3x16x16 .f32)]
      (Rect.unit (s := S3x16x16) ![c0, 0, 0] ![1, 16, 16] inb).toLoadRect = fun _ => (0 : EReal) := by
  rw [View.readCov_eq_canon']
  funext j
  rw [View.canon_unit_zero hz3]
  exact hZ _

theorem slices_disjoint_01 (inb0 : ∀ a, (![0, 0, 0] : Fin 3 → Nat) a + (![1, 16, 16] : Fin 3 → Nat) a ≤ S3x16x16.size a) (inb1 : ∀ a, (![1, 0, 0] : Fin 3 → Nat) a + (![1, 16, 16] : Fin 3 → Nat) a ≤ S3x16x16.size a) : Disjoint (Rect.unit (s := S3x16x16) ![0, 0, 0] ![1, 16, 16] inb0).set (Rect.unit (s := S3x16x16) ![1, 0, 0] ![1, 16, 16] inb1).set :=
  Rect.unit_disjoint (0 : Fin 3) (Or.inl (by show (0 : ℕ) + 1 ≤ 1; omega))
theorem slices_disjoint_02 (inb0 : ∀ a, (![0, 0, 0] : Fin 3 → Nat) a + (![1, 16, 16] : Fin 3 → Nat) a ≤ S3x16x16.size a) (inb2 : ∀ a, (![2, 0, 0] : Fin 3 → Nat) a + (![1, 16, 16] : Fin 3 → Nat) a ≤ S3x16x16.size a) : Disjoint (Rect.unit (s := S3x16x16) ![0, 0, 0] ![1, 16, 16] inb0).set (Rect.unit (s := S3x16x16) ![2, 0, 0] ![1, 16, 16] inb2).set :=
  Rect.unit_disjoint (0 : Fin 3) (Or.inl (by show (0 : ℕ) + 1 ≤ 2; omega))
theorem slices_disjoint_12 (inb1 : ∀ a, (![1, 0, 0] : Fin 3 → Nat) a + (![1, 16, 16] : Fin 3 → Nat) a ≤ S3x16x16.size a) (inb2 : ∀ a, (![2, 0, 0] : Fin 3 → Nat) a + (![1, 16, 16] : Fin 3 → Nat) a ≤ S3x16x16.size a) : Disjoint (Rect.unit (s := S3x16x16) ![1, 0, 0] ![1, 16, 16] inb1).set (Rect.unit (s := S3x16x16) ![2, 0, 0] ![1, 16, 16] inb2).set :=
  Rect.unit_disjoint (0 : Fin 3) (Or.inl (by show (1 : ℕ) + 1 ≤ 2; omega))

set_option maxHeartbeats 4000000 in
/-- Slice 1 read after slice 0 was stored into: still the zeros (the two slices are different rows of the table). -/
theorem rz1 {sig' : RefSig} {κ' : Kind} {sp' : Space} (v : View sig' κ' sp' S3x16x16 .f32)
    (Z : FVec Ideal S3x16x16 .f32) (hZ : ∀ y, Z y = (0 : EReal))
    (inbZ : ∀ a, (![0, 0, 0] : Fin 3 → Nat) a + (![3, 16, 16] : Fin 3 → Nat) a ≤ S3x16x16.size a)
    (inb0 : ∀ a, (![0, 0, 0] : Fin 3 → Nat) a + (![1, 16, 16] : Fin 3 → Nat) a ≤ S3x16x16.size a) (inb1 : ∀ a, (![1, 0, 0] : Fin 3 → Nat) a + (![1, 16, 16] : Fin 3 → Nat) a ≤ S3x16x16.size a)
    (w0 : (Rect.unit (s := S3x16x16) ![0, 0, 0] ![1, 16, 16] inb0).shape.Idx → EReal) :
    v.readCov [⟨(Rect.unit (s := S3x16x16) ![0, 0, 0] ![1, 16, 16] inb0), w0⟩, (⟨Rect.unit (s := S3x16x16) ![0, 0, 0] ![3, 16, 16] inbZ, Z⟩ : View.Piece (Elt Ideal) S3x16x16 .f32)] (Rect.unit (s := S3x16x16) ![1, 0, 0] ![1, 16, 16] inb1).toLoadRect = fun _ => (0 : EReal) :=
  (View.readCov_cons_of_disjoint v ⟨(Rect.unit (s := S3x16x16) ![0, 0, 0] ![1, 16, 16] inb0), w0⟩ [(⟨Rect.unit (s := S3x16x16) ![0, 0, 0] ![3, 16, 16] inbZ, Z⟩ : View.Piece (Elt Ideal) S3x16x16 .f32)] (Rect.unit (s := S3x16x16) ![1, 0, 0] ![1, 16, 16] inb1).toLoadRect (slices_disjoint_01 inb0 inb1)).trans
    (rz v Z hZ inbZ 1 inb1)

set_option maxHeartbeats 4000000 in
/-- Slice 2 read after slices 0 and 1 were stored into: still the zeros. -/
theorem rz2 {sig' : RefSig} {κ' : Kind} {sp' : Space} (v : View sig' κ' sp' S3x16x16 .f32)
    (Z : FVec Ideal S3x16x16 .f32) (hZ : ∀ y, Z y = (0 : EReal))
    (inbZ : ∀ a, (![0, 0, 0] : Fin 3 → Nat) a + (![3, 16, 16] : Fin 3 → Nat) a ≤ S3x16x16.size a)
    (inb0 : ∀ a, (![0, 0, 0] : Fin 3 → Nat) a + (![1, 16, 16] : Fin 3 → Nat) a ≤ S3x16x16.size a) (inb1 : ∀ a, (![1, 0, 0] : Fin 3 → Nat) a + (![1, 16, 16] : Fin 3 → Nat) a ≤ S3x16x16.size a) (inb2 : ∀ a, (![2, 0, 0] : Fin 3 → Nat) a + (![1, 16, 16] : Fin 3 → Nat) a ≤ S3x16x16.size a)
    (w0 : (Rect.unit (s := S3x16x16) ![0, 0, 0] ![1, 16, 16] inb0).shape.Idx → EReal) (w1 : (Rect.unit (s := S3x16x16) ![1, 0, 0] ![1, 16, 16] inb1).shape.Idx → EReal) :
    v.readCov [⟨(Rect.unit (s := S3x16x16) ![1, 0, 0] ![1, 16, 16] inb1), w1⟩, ⟨(Rect.unit (s := S3x16x16) ![0, 0, 0] ![1, 16, 16] inb0), w0⟩, (⟨Rect.unit (s := S3x16x16) ![0, 0, 0] ![3, 16, 16] inbZ, Z⟩ : View.Piece (Elt Ideal) S3x16x16 .f32)] (Rect.unit (s := S3x16x16) ![2, 0, 0] ![1, 16, 16] inb2).toLoadRect = fun _ => (0 : EReal) :=
  (View.readCov_cons_of_disjoint v ⟨(Rect.unit (s := S3x16x16) ![1, 0, 0] ![1, 16, 16] inb1), w1⟩ [⟨(Rect.unit (s := S3x16x16) ![0, 0, 0] ![1, 16, 16] inb0), w0⟩, (⟨Rect.unit (s := S3x16x16) ![0, 0, 0] ![3, 16, 16] inbZ, Z⟩ : View.Piece (Elt Ideal) S3x16x16 .f32)] (Rect.unit (s := S3x16x16) ![2, 0, 0] ![1, 16, 16] inb2).toLoadRect (slices_disjoint_12 inb1 inb2)).trans
    ((View.readCov_cons_of_disjoint v ⟨(Rect.unit (s := S3x16x16) ![0, 0, 0] ![1, 16, 16] inb0), w0⟩ [(⟨Rect.unit (s := S3x16x16) ![0, 0, 0] ![3, 16, 16] inbZ, Z⟩ : View.Piece (Elt Ideal) S3x16x16 .f32)] (Rect.unit (s := S3x16x16) ![2, 0, 0] ![1, 16, 16] inb2).toLoadRect (slices_disjoint_02 inb0 inb2)).trans
      (rz v Z hZ inbZ 2 inb2))

/-- The canon of a list of pieces at an index covered by its FIRST pieces, all of which restrict one function,
    is that function there, whatever the later pieces are. -/
theorem canon_prefix {S : Shape} {e : EltTy} (G : S.Idx → Elt Ideal e) :
    ∀ (L₁ L₂ : List (View.Piece (Elt Ideal) S e)) (_ : ∀ p ∈ L₁, ∀ x : p.1.shape.Idx, p.2 x = G (p.1.emb x))
      (y : S.Idx) (_ : ∃ p ∈ L₁, y ∈ p.1.set), View.canon (L₁ ++ L₂) y = G y
  | [], _, _, _, hy => by obtain ⟨p, hp, _⟩ := hy; simp at hp
  | p :: L, L₂, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_prefix G L L₂ (fun q hq => hL q (by simp [hq])) y ?_
      obtain ⟨q, hq, hyq⟩ := hy
      rcases List.mem_cons.mp hq with rfl | hq'
      · exact absurd hyq hm
      · exact ⟨q, hq', hyq⟩

/-- The three row slices cover the table. -/
theorem cover3 (inb0 : ∀ a, (![0, 0, 0] : Fin 3 → Nat) a + (![1, 16, 16] : Fin 3 → Nat) a ≤ S3x16x16.size a)
    (inb1 : ∀ a, (![1, 0, 0] : Fin 3 → Nat) a + (![1, 16, 16] : Fin 3 → Nat) a ≤ S3x16x16.size a)
    (inb2 : ∀ a, (![2, 0, 0] : Fin 3 → Nat) a + (![1, 16, 16] : Fin 3 → Nat) a ≤ S3x16x16.size a)
    (w0 : (Rect.unit (s := S3x16x16) ![0, 0, 0] ![1, 16, 16] inb0).shape.Idx → EReal)
    (w1 : (Rect.unit (s := S3x16x16) ![1, 0, 0] ![1, 16, 16] inb1).shape.Idx → EReal)
    (w2 : (Rect.unit (s := S3x16x16) ![2, 0, 0] ![1, 16, 16] inb2).shape.Idx → EReal) (y : S3x16x16.Idx) :
    ∃ p ∈ ([⟨Rect.unit (s := S3x16x16) ![2, 0, 0] ![1, 16, 16] inb2, w2⟩,
        ⟨Rect.unit (s := S3x16x16) ![1, 0, 0] ![1, 16, 16] inb1, w1⟩,
        ⟨Rect.unit (s := S3x16x16) ![0, 0, 0] ![1, 16, 16] inb0, w0⟩] : List (View.Piece (Elt Ideal) S3x16x16 .f32)),
      y ∈ p.1.set := by
  obtain ⟨c', h, l, rfl⟩ : ∃ (c' : Fin 3) (h l : Fin 16), y = ix3 c' h l := ⟨y 0, y 1, y 2, eq_ix3 y⟩
  have hh := h.isLt; have hl := l.isLt
  fin_cases c'
  · refine ⟨_, List.mem_cons_of_mem _ (List.mem_cons_of_mem _ (List.mem_singleton_self _)), ?_⟩
    rw [Rect.mem_set_unit]; intro a; fin_cases a <;> (constructor <;> (try simp) <;> omega)
  · refine ⟨_, List.mem_cons_of_mem _ List.mem_cons_self, ?_⟩
    rw [Rect.mem_set_unit]; intro a; fin_cases a <;> (constructor <;> (try simp) <;> omega)
  · refine ⟨_, List.mem_cons_self, ?_⟩
    rw [Rect.mem_set_unit]; intro a; fin_cases a <;> (constructor <;> (try simp) <;> omega)

/-- A first point, first batch: every entry is the block's count (zero plus it). -/
theorem sout_A_0_apply (c : Dev nD) (i : grid0.Coords) (arg3 : Memref sig .tc .vmem S1x3x256x512 .f32) (harg3 : arg3.IsWhole) (arg4 : Memref sig .tc .vmem S1x3x256x512 .f32) (harg4 : arg4.IsWhole) (arg5 : Memref sig .tc .vmem S1x3x16x16 .f32) (harg5 : arg5.IsWhole) (arg6 : Memref sig .tc .vmem S1x3x16x16 .f32) (harg6 : arg6.IsWhole) (arg7 : Memref sig .tc .vmem S3x16x16 .f32) (harg7 : arg7.IsWhole) (arg8 : Memref sig .tc .vmem S3x16x16 .f32) (harg8 : arg8.IsWhole) (hc0 : cond0_0 i) (hc1 : ¬cond0_1 i)
    (x0 : Vec Ideal S1x3x256x512 .f32) (x1 : Vec Ideal S1x3x256x512 .f32)
    (y : S3x16x16.Idx) :
    sout0_A_0 (F := Ideal) c i arg3 harg3 arg4 harg4 arg5 harg5 arg6 harg6 arg7 harg7 arg8 harg8 hc0 hc1 x0 x1 y = 0 + blockCount x0 (y 0) (y 1) (y 2) := by
  unfold sout0_A_0
  rw [View.read_writes_eq_canon _ _ _ (scover0_A_0 c i arg3 harg3 arg4 harg4 arg5 harg5 arg6 harg6 arg7 harg7 arg8 harg8 hc0 hc1 x0 x1)]
  unfold kernelRun0_A
  dsimp only
  sl_unfold_words
  simp only [View.readAt_eq_ld, harg3.read_unread, harg4.read_unread, harg7.read_unread, harg8.read_unread, View.ld_unit_zero (S := S1x3x256x512) hz4]
  simp only [rz _ _ pay4_zero, rz1 _ _ pay4_zero, rz2 _ _ pay4_zero]
  show View.canon ([_, _, _] ++ [_]) y = _
  refine canon_prefix (fun y : S3x16x16.Idx => (fun _ => (0 : EReal)) y + blockCount x0 (y 0) (y 1) (y 2)) _ _ ?_ y (cover3 _ _ _ _ _ _ y)
  intro p hp
  simp only [List.mem_cons, List.not_mem_nil, or_false] at hp
  rcases hp with rfl | rfl | rfl
  · intro x
    obtain ⟨u, p, q, rfl⟩ : ∃ (u : Fin 1) (p q : Fin 16), x = ix3 u p q := ⟨x 0, x 1, x 2, eq_ix3 x⟩
    rw [store2_eq]; exact tile_ok 2 (by omega) _ _ (fun _ => (0 : EReal)) x0 (pairCount_chan2 x0) u p q
  · intro x
    obtain ⟨u, p, q, rfl⟩ : ∃ (u : Fin 1) (p q : Fin 16), x = ix3 u p q := ⟨x 0, x 1, x 2, eq_ix3 x⟩
    rw [store1_eq]; exact tile_ok 1 (by omega) _ _ (fun _ => (0 : EReal)) x0 (pairCount_chan1 x0) u p q
  · intro x
    obtain ⟨u, p, q, rfl⟩ : ∃ (u : Fin 1) (p q : Fin 16), x = ix3 u p q := ⟨x 0, x 1, x 2, eq_ix3 x⟩
    rw [store0_eq]; exact tile_ok 0 (by omega) _ _ (fun _ => (0 : EReal)) x0 (pairCount_chan0 x0) u p q

/-- A first point, second batch. -/
theorem sout_A_1_apply (c : Dev nD) (i : grid0.Coords) (arg3 : Memref sig .tc .vmem S1x3x256x512 .f32) (harg3 : arg3.IsWhole) (arg4 : Memref sig .tc .vmem S1x3x256x512 .f32) (harg4 : arg4.IsWhole) (arg5 : Memref sig .tc .vmem S1x3x16x16 .f32) (harg5 : arg5.IsWhole) (arg6 : Memref sig .tc .vmem S1x3x16x16 .f32) (harg6 : arg6.IsWhole) (arg7 : Memref sig .tc .vmem S3x16x16 .f32) (harg7 : arg7.IsWhole) (arg8 : Memref sig .tc .vmem S3x16x16 .f32) (harg8 : arg8.IsWhole) (hc0 : cond0_0 i) (hc1 : ¬cond0_1 i)
    (x0 : Vec Ideal S1x3x256x512 .f32) (x1 : Vec Ideal S1x3x256x512 .f32)
    (y : S3x16x16.Idx) :
    sout0_A_1 (F := Ideal) c i arg3 harg3 arg4 harg4 arg5 harg5 arg6 harg6 arg7 harg7 arg8 harg8 hc0 hc1 x0 x1 y = 0 + blockCount x1 (y 0) (y 1) (y 2) := by
  unfold sout0_A_1
  rw [View.read_writes_eq_canon _ _ _ (scover0_A_1 c i arg3 harg3 arg4 harg4 arg5 harg5 arg6 harg6 arg7 harg7 arg8 harg8 hc0 hc1 x0 x1)]
  unfold kernelRun0_A
  dsimp only
  sl_unfold_words
  simp only [View.readAt_eq_ld, harg3.read_unread, harg4.read_unread, harg7.read_unread, harg8.read_unread, View.ld_unit_zero (S := S1x3x256x512) hz4]
  simp only [rz _ _ pay5_zero, rz1 _ _ pay5_zero, rz2 _ _ pay5_zero]
  show View.canon ([_, _, _] ++ [_]) y = _
  refine canon_prefix (fun y : S3x16x16.Idx => (fun _ => (0 : EReal)) y + blockCount x1 (y 0) (y 1) (y 2)) _ _ ?_ y (cover3 _ _ _ _ _ _ y)
  intro p hp
  simp only [List.mem_cons, List.not_mem_nil, or_false] at hp
  rcases hp with rfl | rfl | rfl
  · intro x
    obtain ⟨u, p, q, rfl⟩ : ∃ (u : Fin 1) (p q : Fin 16), x = ix3 u p q := ⟨x 0, x 1, x 2, eq_ix3 x⟩
    rw [store2'_eq]; exact tile_ok 2 (by omega) _ _ (fun _ => (0 : EReal)) x1 (pairCount_chan2' x1) u p q
  · intro x
    obtain ⟨u, p, q, rfl⟩ : ∃ (u : Fin 1) (p q : Fin 16), x = ix3 u p q := ⟨x 0, x 1, x 2, eq_ix3 x⟩
    rw [store1'_eq]; exact tile_ok 1 (by omega) _ _ (fun _ => (0 : EReal)) x1 (pairCount_chan1' x1) u p q
  · intro x
    obtain ⟨u, p, q, rfl⟩ : ∃ (u : Fin 1) (p q : Fin 16), x = ix3 u p q := ⟨x 0, x 1, x 2, eq_ix3 x⟩
    rw [accum'_eq, store0'_eq]; exact tile_ok 0 (by omega) _ _ (fun _ => (0 : EReal)) x1 (pairCount_chan0 x1) u p q

end Cert.KHist

end
-- ==== Proof.KFold.lean ====
/-
  The running tables over a half of the batch, and what is written back.

  The grid runs 64 points: half g of the batch takes points 32·g … 32·g + 31. Within a half the table of a batch
  starts at zero at the first point and grows by each point's block counts; after the last point it holds the
  sum of the 32 points' counts, and that table is what the kernel writes back as block g of its output array.
-/
import proofs.«145997_j19834158972940_2_alg».proof.Proof.KAcc

set_option maxRecDepth 16384

noncomputable section

namespace Cert.KHist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Hist

variable (m : (ℓ : Loc nD τ sig) → Buf (Elt Ideal) ℓ) (c : Dev nD)

/-! ## Batch 0: the running table over one half -/

/-- What point `n` adds to batch 0's table: its block's counts (nothing past the grid). -/
def add0 (n : ℕ) (y : S3x16x16.Idx) : EReal :=
  if h : n < cfg0.N then blockCount (iblk m c 0 ⟨n, h⟩) (y 0) (y 1) (y 2) else 0

/-- Batch 0's table after point `n`. -/
def scr0 (n : ℕ) (hn : n < cfg0.N) : S3x16x16.Idx → EReal := (outsAt0 m c n hn).2.2.1

/-- At the first point of a half the table is zero plus the point's counts. -/
theorem scr0_reset (n : ℕ) (hn : n < cfg0.N) (h0 : n % 32 = 0) :
    scr0 m c n hn = fun y => 0 + add0 m c n y := by
  have hN : cfg0.N = 64 := N_0
  have h1 : ¬(⟨n, hn⟩ : Fin cfg0.N).val % 32 = 31 := by dsimp only; omega
  funext y
  have key := congrArg (fun p : Vec Ideal S1x3x16x16 .f32 × Vec Ideal S1x3x16x16 .f32 × Vec Ideal S3x16x16 .f32 × Vec Ideal S3x16x16 .f32 => p.2.2.1 y) (outsAt0_A m c ⟨n, hn⟩ h0 h1)
  dsimp only at key
  unfold scr0 add0
  rw [dif_pos hn]
  refine key.trans ?_
  exact sout_A_0_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) _ _ (iblk m c 0 ⟨n, hn⟩) (iblk m c 1 ⟨n, hn⟩) y

/-- At every other point the table grows by the point's counts. -/
theorem scr0_step (n : ℕ) (hn : n + 1 < cfg0.N) (h0 : ¬(n + 1) % 32 = 0) :
    scr0 m c (n + 1) hn = fun y => scr0 m c n (Nat.lt_of_succ_lt hn) y + add0 m c (n + 1) y := by
  funext y
  unfold scr0 add0
  rw [dif_pos hn]
  by_cases h1 : (n + 1) % 32 = 31
  · have key := congrArg (fun p : Vec Ideal S1x3x16x16 .f32 × Vec Ideal S1x3x16x16 .f32 × Vec Ideal S3x16x16 .f32 × Vec Ideal S3x16x16 .f32 => p.2.2.1 y) (outsAt0_C m c ⟨n + 1, hn⟩ h0 h1)
    dsimp only at key
    refine key.trans ?_
    exact sout_C_0_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩)
      (outsAt0 m c n (Nat.lt_of_succ_lt hn)).2.2.1 (outsAt0 m c n (Nat.lt_of_succ_lt hn)).2.2.2 y
  · have key := congrArg (fun p : Vec Ideal S1x3x16x16 .f32 × Vec Ideal S1x3x16x16 .f32 × Vec Ideal S3x16x16 .f32 × Vec Ideal S3x16x16 .f32 => p.2.2.1 y) (outsAt0_B m c ⟨n + 1, hn⟩ h0 h1)
    dsimp only at key
    refine key.trans ?_
    exact sout_B_0_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩)
      (outsAt0 m c n (Nat.lt_of_succ_lt hn)).2.2.1 (outsAt0 m c n (Nat.lt_of_succ_lt hn)).2.2.2 y

/-- So after the last point of half `q` the table is the sum of the 32 points' counts. -/
theorem scr0_last (q : ℕ) (hq : 32 * q + 31 < cfg0.N) (y : S3x16x16.Idx) :
    scr0 m c (32 * q + 31) hq y = 0 + ∑ s ∈ Finset.range 32, add0 m c (32 * q + s) y := by
  have e := Pipeline.eq_accAt (N := cfg0.N) (scr0 m c) 32 (fun n _ => fun y => 0 + add0 m c n y)
    (fun n _ acc => fun y => acc y + add0 m c n y)
    (fun n h h0 => scr0_reset m c n h h0) (fun n h h0 => scr0_step m c n h h0) q 31 (by omega) hq
  rw [e]
  exact Pipeline.accAt_add_apply _ _ (fun _ => (0 : EReal)) (add0 m c) (32 * q) 31 (fun h i => rfl)
    (fun n h acc i _ _ => rfl) 31 le_rfl hq y

/-- The block written back at the last point of a half is that table. -/
theorem out2_last (t : Fin cfg0.N) (h31 : t.val % 32 = 31) (j : S1x3x16x16.Idx) :
    (outsAt0 m c t.val t.isLt).1 j
      = 0 + ∑ s ∈ Finset.range 32, add0 m c (32 * (t.val / 32) + s) (ix3 (j 1) (j 2) (j 3)) := by
  have h0 : ¬t.val % 32 = 0 := by omega
  obtain ⟨u, c', h, l, rfl⟩ : ∃ (u : Fin 1) (c' : Fin 3) (h l : Fin 16), j = ix4 u c' h l := ⟨j 0, j 1, j 2, j 3, eq_ix4 j⟩
  obtain rfl : u = 0 := Subsingleton.elim _ _
  have k1 := congrArg (fun p : Vec Ideal S1x3x16x16 .f32 × Vec Ideal S1x3x16x16 .f32 × Vec Ideal S3x16x16 .f32 × Vec Ideal S3x16x16 .f32 => p.1 (ix4 (0 : Fin 1) c' h l)) (outsAt0_C m c t h0 h31)
  have k2 := congrArg (fun p : Vec Ideal S1x3x16x16 .f32 × Vec Ideal S1x3x16x16 .f32 × Vec Ideal S3x16x16 .f32 × Vec Ideal S3x16x16 .f32 => p.2.2.1 (ix3 c' h l)) (outsAt0_C m c t h0 h31)
  dsimp only at k1 k2
  have e1 := out_C_2_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h31) (iblk m c 0 t) (iblk m c 1 t)
      (outsAt0 m c (t.val - 1) (Nat.lt_of_le_of_lt (Nat.sub_le _ _) t.isLt)).2.2.1
      (outsAt0 m c (t.val - 1) (Nat.lt_of_le_of_lt (Nat.sub_le _ _) t.isLt)).2.2.2 c' h l
  have e2 := sout_C_0_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h31) (iblk m c 0 t) (iblk m c 1 t)
      (outsAt0 m c (t.val - 1) (Nat.lt_of_le_of_lt (Nat.sub_le _ _) t.isLt)).2.2.1
      (outsAt0 m c (t.val - 1) (Nat.lt_of_le_of_lt (Nat.sub_le _ _) t.isLt)).2.2.2 (ix3 c' h l)
  have e3 : (outsAt0 m c t.val t.isLt).1 (ix4 (0 : Fin 1) c' h l) = scr0 m c t.val t.isLt (ix3 c' h l) :=
    (k1.trans e1).trans (k2.trans e2).symm
  have same : ∀ (u : ℕ) (hu : u < cfg0.N), u = t.val → scr0 m c u hu = scr0 m c t.val t.isLt := fun u hu e => by subst e; rfl
  have hq : 32 * (t.val / 32) + 31 < cfg0.N := by have := t.isLt; omega
  rw [e3, ← same _ hq (by omega)]
  exact scr0_last m c (t.val / 32) hq (ix3 c' h l)

/-! ## Batch 1: the running table over one half -/

/-- What point `n` adds to batch 1's table: its block's counts (nothing past the grid). -/
def add1 (n : ℕ) (y : S3x16x16.Idx) : EReal :=
  if h : n < cfg0.N then blockCount (iblk m c 1 ⟨n, h⟩) (y 0) (y 1) (y 2) else 0

/-- Batch 1's table after point `n`. -/
def scr1 (n : ℕ) (hn : n < cfg0.N) : S3x16x16.Idx → EReal := (outsAt0 m c n hn).2.2.2

/-- At the first point of a half the table is zero plus the point's counts. -/
theorem scr1_reset (n : ℕ) (hn : n < cfg0.N) (h0 : n % 32 = 0) :
    scr1 m c n hn = fun y => 0 + add1 m c n y := by
  have hN : cfg0.N = 64 := N_0
  have h1 : ¬(⟨n, hn⟩ : Fin cfg0.N).val % 32 = 31 := by dsimp only; omega
  funext y
  have key := congrArg (fun p : Vec Ideal S1x3x16x16 .f32 × Vec Ideal S1x3x16x16 .f32 × Vec Ideal S3x16x16 .f32 × Vec Ideal S3x16x16 .f32 => p.2.2.2 y) (outsAt0_A m c ⟨n, hn⟩ h0 h1)
  dsimp only at key
  unfold scr1 add1
  rw [dif_pos hn]
  refine key.trans ?_
  exact sout_A_1_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) _ _ (iblk m c 0 ⟨n, hn⟩) (iblk m c 1 ⟨n, hn⟩) y

/-- At every other point the table grows by the point's counts. -/
theorem scr1_step (n : ℕ) (hn : n + 1 < cfg0.N) (h0 : ¬(n + 1) % 32 = 0) :
    scr1 m c (n + 1) hn = fun y => scr1 m c n (Nat.lt_of_succ_lt hn) y + add1 m c (n + 1) y := by
  funext y
  unfold scr1 add1
  rw [dif_pos hn]
  by_cases h1 : (n + 1) % 32 = 31
  · have key := congrArg (fun p : Vec Ideal S1x3x16x16 .f32 × Vec Ideal S1x3x16x16 .f32 × Vec Ideal S3x16x16 .f32 × Vec Ideal S3x16x16 .f32 => p.2.2.2 y) (outsAt0_C m c ⟨n + 1, hn⟩ h0 h1)
    dsimp only at key
    refine key.trans ?_
    exact sout_C_1_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩)
      (outsAt0 m c n (Nat.lt_of_succ_lt hn)).2.2.1 (outsAt0 m c n (Nat.lt_of_succ_lt hn)).2.2.2 y
  · have key := congrArg (fun p : Vec Ideal S1x3x16x16 .f32 × Vec Ideal S1x3x16x16 .f32 × Vec Ideal S3x16x16 .f32 × Vec Ideal S3x16x16 .f32 => p.2.2.2 y) (outsAt0_B m c ⟨n + 1, hn⟩ h0 h1)
    dsimp only at key
    refine key.trans ?_
    exact sout_B_1_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ (iblk m c 0 ⟨n + 1, hn⟩) (iblk m c 1 ⟨n + 1, hn⟩)
      (outsAt0 m c n (Nat.lt_of_succ_lt hn)).2.2.1 (outsAt0 m c n (Nat.lt_of_succ_lt hn)).2.2.2 y

/-- So after the last point of half `q` the table is the sum of the 32 points' counts. -/
theorem scr1_last (q : ℕ) (hq : 32 * q + 31 < cfg0.N) (y : S3x16x16.Idx) :
    scr1 m c (32 * q + 31) hq y = 0 + ∑ s ∈ Finset.range 32, add1 m c (32 * q + s) y := by
  have e := Pipeline.eq_accAt (N := cfg0.N) (scr1 m c) 32 (fun n _ => fun y => 0 + add1 m c n y)
    (fun n _ acc => fun y => acc y + add1 m c n y)
    (fun n h h0 => scr1_reset m c n h h0) (fun n h h0 => scr1_step m c n h h0) q 31 (by omega) hq
  rw [e]
  exact Pipeline.accAt_add_apply _ _ (fun _ => (0 : EReal)) (add1 m c) (32 * q) 31 (fun h i => rfl)
    (fun n h acc i _ _ => rfl) 31 le_rfl hq y

/-- The block written back at the last point of a half is that table. -/
theorem out3_last (t : Fin cfg0.N) (h31 : t.val % 32 = 31) (j : S1x3x16x16.Idx) :
    (outsAt0 m c t.val t.isLt).2.1 j
      = 0 + ∑ s ∈ Finset.range 32, add1 m c (32 * (t.val / 32) + s) (ix3 (j 1) (j 2) (j 3)) := by
  have h0 : ¬t.val % 32 = 0 := by omega
  obtain ⟨u, c', h, l, rfl⟩ : ∃ (u : Fin 1) (c' : Fin 3) (h l : Fin 16), j = ix4 u c' h l := ⟨j 0, j 1, j 2, j 3, eq_ix4 j⟩
  obtain rfl : u = 0 := Subsingleton.elim _ _
  have k1 := congrArg (fun p : Vec Ideal S1x3x16x16 .f32 × Vec Ideal S1x3x16x16 .f32 × Vec Ideal S3x16x16 .f32 × Vec Ideal S3x16x16 .f32 => p.2.1 (ix4 (0 : Fin 1) c' h l)) (outsAt0_C m c t h0 h31)
  have k2 := congrArg (fun p : Vec Ideal S1x3x16x16 .f32 × Vec Ideal S1x3x16x16 .f32 × Vec Ideal S3x16x16 .f32 × Vec Ideal S3x16x16 .f32 => p.2.2.2 (ix3 c' h l)) (outsAt0_C m c t h0 h31)
  dsimp only at k1 k2
  have e1 := out_C_3_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h31) (iblk m c 0 t) (iblk m c 1 t)
      (outsAt0 m c (t.val - 1) (Nat.lt_of_le_of_lt (Nat.sub_le _ _) t.isLt)).2.2.1
      (outsAt0 m c (t.val - 1) (Nat.lt_of_le_of_lt (Nat.sub_le _ _) t.isLt)).2.2.2 c' h l
  have e2 := sout_C_1_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h31) (iblk m c 0 t) (iblk m c 1 t)
      (outsAt0 m c (t.val - 1) (Nat.lt_of_le_of_lt (Nat.sub_le _ _) t.isLt)).2.2.1
      (outsAt0 m c (t.val - 1) (Nat.lt_of_le_of_lt (Nat.sub_le _ _) t.isLt)).2.2.2 (ix3 c' h l)
  have e3 : (outsAt0 m c t.val t.isLt).2.1 (ix4 (0 : Fin 1) c' h l) = scr1 m c t.val t.isLt (ix3 c' h l) :=
    (k1.trans e1).trans (k2.trans e2).symm
  have same : ∀ (u : ℕ) (hu : u < cfg0.N), u = t.val → scr1 m c u hu = scr1 m c t.val t.isLt := fun u hu e => by subst e; rfl
  have hq : 32 * (t.val / 32) + 31 < cfg0.N := by have := t.isLt; omega
  rw [e3, ← same _ hq (by omega)]
  exact scr1_last m c (t.val / 32) hq (ix3 c' h l)

end Cert.KHist

end
-- ==== Proof.KArr.lean ====
/-
  The kernel's two output arrays, and the blocks it reads.

  Output array b has one block per half of the batch, written back once, at the half's last grid point; so entry
  (g, c', h, l) is the sum over half g's 32 points of the points' counts. A point t = 32·g + 2·i + p reads, of each
  batch, the block of image 16·g + i and rows 256·p … 256·p + 255.
-/
import proofs.«145997_j19834158972940_2_alg».proof.Proof.KFold

set_option maxRecDepth 16384

noncomputable section

namespace Cert.KHist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Hist

variable (m : (ℓ : Loc nD τ sig) → Buf (Elt Ideal) ℓ) (c : Dev nD)

/-- The printed index maps, decided once over the 64 grid points: an output block's index is the half; an input
    block's is (image, 0, row half, 0). -/
theorem idx_facts : ∀ t : Fin cfg0.N,
    win0_2.index t (0 : Fin 4) = t.val / 32 ∧ win0_2.index t (1 : Fin 4) = 0 ∧ win0_2.index t (2 : Fin 4) = 0 ∧ win0_2.index t (3 : Fin 4) = 0
    ∧ win0_3.index t (0 : Fin 4) = t.val / 32 ∧ win0_3.index t (1 : Fin 4) = 0 ∧ win0_3.index t (2 : Fin 4) = 0 ∧ win0_3.index t (3 : Fin 4) = 0
    ∧ win0_0.index t (0 : Fin 4) = 16 * (t.val / 32) + t.val % 32 / 2 ∧ win0_0.index t (1 : Fin 4) = 0 ∧ win0_0.index t (2 : Fin 4) = t.val % 2 ∧ win0_0.index t (3 : Fin 4) = 0
    ∧ win0_1.index t (0 : Fin 4) = 16 * (t.val / 32) + t.val % 32 / 2 ∧ win0_1.index t (1 : Fin 4) = 0 ∧ win0_1.index t (2 : Fin 4) = t.val % 2 ∧ win0_1.index t (3 : Fin 4) = 0 :=
  (by decide +kernel : ∀ t : Fin grid0.N, _)

/-! ## Output array 0 -/

/-- Entry (g, c', h, l) of output array 0: the sum over half g's 32 points of the points' counts at (c', h, l). -/
def outArr0 : S2x3x16x16.Idx → EReal := fun i =>
  0 + ∑ s ∈ Finset.range 32, add0 m c (32 * (i 0).val + s) (ix3 (i 1 : Fin 3) (i 2 : Fin 16) (i 3 : Fin 16))

/-- What the last point of a half writes back is that half's block of the array. -/
theorem flushed2_eq (t : Fin cfg0.N) (hf : (cfg0.win 2).flush t = true) :
    (dats m 0 c).flushed 2 t = ((cfg0.win 2).blk t).view.read (Elt Ideal) (outArr0 m c) := by
  have h31 := (flush0_2 t).mp hf
  obtain ⟨e0, e1, e2, e3, -⟩ := idx_facts t
  show (cfg0.win 2).cut (grid0.coords t) ((dats m 0 c).after 2 t) = _
  rw [after0_2]
  funext j
  refine (out2_last m c t h31 j).trans ?_
  show _ = outArr0 m c (((cfg0.win 2).blk t).view.emb j)
  unfold outArr0
  have hj0 : (j 0).val < 1 := (j 0).isLt
  have a0 : ((((cfg0.win 2).blk t).view.emb j) 0).val = t.val / 32 := by
    show win0_2.index t (0 : Fin 4) * 1 + 1 * (j 0).val = _; omega
  have a1 : ((((cfg0.win 2).blk t).view.emb j) 1 : Fin 3) = j 1 :=
    Fin.ext (by show win0_2.index t (1 : Fin 4) * 3 + 1 * (j 1).val = (j 1).val; omega)
  have a2 : ((((cfg0.win 2).blk t).view.emb j) 2 : Fin 16) = j 2 :=
    Fin.ext (by show win0_2.index t (2 : Fin 4) * 16 + 1 * (j 2).val = (j 2).val; omega)
  have a3 : ((((cfg0.win 2).blk t).view.emb j) 3 : Fin 16) = j 3 :=
    Fin.ext (by show win0_2.index t (3 : Fin 4) * 16 + 1 * (j 3).val = (j 3).val; omega)
  rw [a0, a1, a2, a3]

/-- Every entry of the array lies in the block of its half's last point. -/
theorem blockCover2 (i : S2x3x16x16.Idx) :
    ∃ t : Fin cfg0.N, (cfg0.win 2).flush t = true ∧ i ∈ ((cfg0.win 2).blk t).view.set := by
  have hN : cfg0.N = 64 := N_0
  have h0 : (i 0).val < 2 := (i 0).isLt
  have h1 : (i 1).val < 3 := (i 1).isLt
  have h2 : (i 2).val < 16 := (i 2).isLt
  have h3 : (i 3).val < 16 := (i 3).isLt
  have ht : 32 * (i 0).val + 31 < cfg0.N := by omega
  refine ⟨(⟨32 * (i 0).val + 31, ht⟩ : Fin cfg0.N), (flush0_2 _).mpr (by dsimp only; omega), ?_⟩
  obtain ⟨e0, e1, e2, e3, -⟩ := idx_facts (⟨32 * (i 0).val + 31, ht⟩ : Fin cfg0.N)
  dsimp only at e0
  show i ∈ ((View.whole main_v0_0).slice (win0_2.rect (⟨32 * (i 0).val + 31, ht⟩ : Fin cfg0.N))).set
  rw [View.set_slice_whole, Rect.mem_set_unit]
  intro a
  match a with
  | ⟨0, _⟩ => show win0_2.index (⟨32 * (i 0).val + 31, ht⟩ : Fin cfg0.N) (0 : Fin 4) * 1 ≤ (i 0).val ∧ (i 0).val < win0_2.index (⟨32 * (i 0).val + 31, ht⟩ : Fin cfg0.N) (0 : Fin 4) * 1 + 1; omega
  | ⟨1, _⟩ => show win0_2.index (⟨32 * (i 0).val + 31, ht⟩ : Fin cfg0.N) (1 : Fin 4) * 3 ≤ (i 1).val ∧ (i 1).val < win0_2.index (⟨32 * (i 0).val + 31, ht⟩ : Fin cfg0.N) (1 : Fin 4) * 3 + 3; omega
  | ⟨2, _⟩ => show win0_2.index (⟨32 * (i 0).val + 31, ht⟩ : Fin cfg0.N) (2 : Fin 4) * 16 ≤ (i 2).val ∧ (i 2).val < win0_2.index (⟨32 * (i 0).val + 31, ht⟩ : Fin cfg0.N) (2 : Fin 4) * 16 + 16; omega
  | ⟨3, _⟩ => show win0_2.index (⟨32 * (i 0).val + 31, ht⟩ : Fin cfg0.N) (3 : Fin 4) * 16 ≤ (i 3).val ∧ (i 3).val < win0_2.index (⟨32 * (i 0).val + 31, ht⟩ : Fin cfg0.N) (3 : Fin 4) * 16 + 16; omega

/-- So the array ends holding, half by half, the sums of the points' counts. -/
theorem final2 : (dats m 0 c).arrAt 2 cfg0.N = outArr0 m c :=
  (dats m 0 c).arrAt_eq_of_cover 2 (outArr0 m c) (fun t hf => flushed2_eq m c t hf) blockCover2

/-- The block of batch 0 at a point, read at (channel, pixel): the image is 16·(half) + (point within the half) / 2,
    the row is 256·(point parity) + pixel / 512, the column pixel % 512. -/
theorem iblk0_apply (t : Fin cfg0.N) (c' : Fin 3) (k : Fin 131072) :
    (iblk m c 0 t : Vec Ideal S1x3x256x512 .f32) (pix c' k)
      = m ((c : Thread nD τ).loc main_arg0)
          (ix4 (⟨16 * (t.val / 32) + t.val % 32 / 2, by have := t.isLt; have hN : cfg0.N = 64 := N_0; omega⟩ : Fin 32) c'
            (⟨256 * (t.val % 2) + k.val / 512, by have := k.isLt; omega⟩ : Fin 512) (⟨k.val % 512, by omega⟩ : Fin 512)) := by
  obtain ⟨-, -, -, -, -, -, -, -, i0, i1, i2, i3, -⟩ := idx_facts t
  unfold iblk
  rw [View.read_apply]
  show V m c main_arg0 _ = m (c.tc.loc main_arg0) _
  unfold V
  congr 1
  funext a
  apply Fin.ext
  have hk := k.isLt
  match a with
  | ⟨0, _⟩ => show win0_0.index t (0 : Fin 4) * 1 + 1 * 0 = 16 * (t.val / 32) + t.val % 32 / 2; omega
  | ⟨1, _⟩ => show win0_0.index t (1 : Fin 4) * 3 + 1 * c'.val = c'.val; omega
  | ⟨2, _⟩ => show win0_0.index t (2 : Fin 4) * 256 + 1 * (k.val / 512) = 256 * (t.val % 2) + k.val / 512; omega
  | ⟨3, _⟩ => show win0_0.index t (3 : Fin 4) * 512 + 1 * (k.val % 512) = k.val % 512; omega

/-! ## Output array 1 -/

/-- Entry (g, c', h, l) of output array 1: the sum over half g's 32 points of the points' counts at (c', h, l). -/
def outArr1 : S2x3x16x16.Idx → EReal := fun i =>
  0 + ∑ s ∈ Finset.range 32, add1 m c (32 * (i 0).val + s) (ix3 (i 1 : Fin 3) (i 2 : Fin 16) (i 3 : Fin 16))

/-- What the last point of a half writes back is that half's block of the array. -/
theorem flushed3_eq (t : Fin cfg0.N) (hf : (cfg0.win 3).flush t = true) :
    (dats m 0 c).flushed 3 t = ((cfg0.win 3).blk t).view.read (Elt Ideal) (outArr1 m c) := by
  have h31 := (flush0_3 t).mp hf
  obtain ⟨-, -, -, -, e0, e1, e2, e3, -⟩ := idx_facts t
  show (cfg0.win 3).cut (grid0.coords t) ((dats m 0 c).after 3 t) = _
  rw [after0_3]
  funext j
  refine (out3_last m c t h31 j).trans ?_
  show _ = outArr1 m c (((cfg0.win 3).blk t).view.emb j)
  unfold outArr1
  have hj0 : (j 0).val < 1 := (j 0).isLt
  have a0 : ((((cfg0.win 3).blk t).view.emb j) 0).val = t.val / 32 := by
    show win0_3.index t (0 : Fin 4) * 1 + 1 * (j 0).val = _; omega
  have a1 : ((((cfg0.win 3).blk t).view.emb j) 1 : Fin 3) = j 1 :=
    Fin.ext (by show win0_3.index t (1 : Fin 4) * 3 + 1 * (j 1).val = (j 1).val; omega)
  have a2 : ((((cfg0.win 3).blk t).view.emb j) 2 : Fin 16) = j 2 :=
    Fin.ext (by show win0_3.index t (2 : Fin 4) * 16 + 1 * (j 2).val = (j 2).val; omega)
  have a3 : ((((cfg0.win 3).blk t).view.emb j) 3 : Fin 16) = j 3 :=
    Fin.ext (by show win0_3.index t (3 : Fin 4) * 16 + 1 * (j 3).val = (j 3).val; omega)
  rw [a0, a1, a2, a3]

/-- Every entry of the array lies in the block of its half's last point. -/
theorem blockCover3 (i : S2x3x16x16.Idx) :
    ∃ t : Fin cfg0.N, (cfg0.win 3).flush t = true ∧ i ∈ ((cfg0.win 3).blk t).view.set := by
  have hN : cfg0.N = 64 := N_0
  have h0 : (i 0).val < 2 := (i 0).isLt
  have h1 : (i 1).val < 3 := (i 1).isLt
  have h2 : (i 2).val < 16 := (i 2).isLt
  have h3 : (i 3).val < 16 := (i 3).isLt
  have ht : 32 * (i 0).val + 31 < cfg0.N := by omega
  refine ⟨(⟨32 * (i 0).val + 31, ht⟩ : Fin cfg0.N), (flush0_3 _).mpr (by dsimp only; omega), ?_⟩
  obtain ⟨-, -, -, -, e0, e1, e2, e3, -⟩ := idx_facts (⟨32 * (i 0).val + 31, ht⟩ : Fin cfg0.N)
  dsimp only at e0
  show i ∈ ((View.whole main_v0_1).slice (win0_3.rect (⟨32 * (i 0).val + 31, ht⟩ : Fin cfg0.N))).set
  rw [View.set_slice_whole, Rect.mem_set_unit]
  intro a
  match a with
  | ⟨0, _⟩ => show win0_3.index (⟨32 * (i 0).val + 31, ht⟩ : Fin cfg0.N) (0 : Fin 4) * 1 ≤ (i 0).val ∧ (i 0).val < win0_3.index (⟨32 * (i 0).val + 31, ht⟩ : Fin cfg0.N) (0 : Fin 4) * 1 + 1; omega
  | ⟨1, _⟩ => show win0_3.index (⟨32 * (i 0).val + 31, ht⟩ : Fin cfg0.N) (1 : Fin 4) * 3 ≤ (i 1).val ∧ (i 1).val < win0_3.index (⟨32 * (i 0).val + 31, ht⟩ : Fin cfg0.N) (1 : Fin 4) * 3 + 3; omega
  | ⟨2, _⟩ => show win0_3.index (⟨32 * (i 0).val + 31, ht⟩ : Fin cfg0.N) (2 : Fin 4) * 16 ≤ (i 2).val ∧ (i 2).val < win0_3.index (⟨32 * (i 0).val + 31, ht⟩ : Fin cfg0.N) (2 : Fin 4) * 16 + 16; omega
  | ⟨3, _⟩ => show win0_3.index (⟨32 * (i 0).val + 31, ht⟩ : Fin cfg0.N) (3 : Fin 4) * 16 ≤ (i 3).val ∧ (i 3).val < win0_3.index (⟨32 * (i 0).val + 31, ht⟩ : Fin cfg0.N) (3 : Fin 4) * 16 + 16; omega

/-- So the array ends holding, half by half, the sums of the points' counts. -/
theorem final3 : (dats m 0 c).arrAt 3 cfg0.N = outArr1 m c :=
  (dats m 0 c).arrAt_eq_of_cover 3 (outArr1 m c) (fun t hf => flushed3_eq m c t hf) blockCover3

/-- The block of batch 1 at a point, read at (channel, pixel): the image is 16·(half) + (point within the half) / 2,
    the row is 256·(point parity) + pixel / 512, the column pixel % 512. -/
theorem iblk1_apply (t : Fin cfg0.N) (c' : Fin 3) (k : Fin 131072) :
    (iblk m c 1 t : Vec Ideal S1x3x256x512 .f32) (pix c' k)
      = m ((c : Thread nD τ).loc main_arg1)
          (ix4 (⟨16 * (t.val / 32) + t.val % 32 / 2, by have := t.isLt; have hN : cfg0.N = 64 := N_0; omega⟩ : Fin 32) c'
            (⟨256 * (t.val % 2) + k.val / 512, by have := k.isLt; omega⟩ : Fin 512) (⟨k.val % 512, by omega⟩ : Fin 512)) := by
  obtain ⟨-, -, -, -, -, -, -, -, -, -, -, -, i0, i1, i2, i3⟩ := idx_facts t
  unfold iblk
  rw [View.read_apply]
  show V m c main_arg1 _ = m (c.tc.loc main_arg1) _
  unfold V
  congr 1
  funext a
  apply Fin.ext
  have hk := k.isLt
  match a with
  | ⟨0, _⟩ => show win0_1.index t (0 : Fin 4) * 1 + 1 * 0 = 16 * (t.val / 32) + t.val % 32 / 2; omega
  | ⟨1, _⟩ => show win0_1.index t (1 : Fin 4) * 3 + 1 * c'.val = c'.val; omega
  | ⟨2, _⟩ => show win0_1.index t (2 : Fin 4) * 256 + 1 * (k.val / 512) = 256 * (t.val % 2) + k.val / 512; omega
  | ⟨3, _⟩ => show win0_1.index t (3 : Fin 4) * 512 + 1 * (k.val % 512) = k.val % 512; omega

end Cert.KHist

end
-- ==== Proof.KHistEq.lean ====
/-
  The kernel's histogram arrays are the histograms.

  After the region the host adds the two halves' blocks of each output array and lays the 3 × 16 × 16 result out as
  3 × 256: entry (c', v) is entry (c', v / 16, v % 16). Unfolding what the blocks hold — sums over a half's points
  of the points' block counts — and which pixels a point's block holds, this is a sum of ones over
  (half, point, pixel), which is the sum over (image, row, column): the count of channel c' pixels whose bin is v.
-/
import proofs.«145997_j19834158972940_2_alg».proof.Proof.KArr
import Idealize.ShloMosaic.PureOps.Ideal.Laws

set_option maxRecDepth 16384

noncomputable section

namespace Cert.KHist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Hist

variable (m : (ℓ : Loc nD τ sig) → Buf (Elt Ideal) ℓ) (c : Dev nD)

/-- Batch 0: the kernel's histogram array is the histogram of the batch. -/
theorem khist0 :
    shapeCast S3x256 (Host.reduceAdd (F := Ideal) (outArr0 m c) (constant S_ .f32 0x00000000#32)
        Gen.reducesTo_S2x3x16x16_S3x16x16_d0 Gen.h_S_) Gen.shapeCasts_S3x16x16_S3x256
      = hist (m ((c : Thread nD τ).loc main_arg0)) := by
  have hN : cfg0.N = 64 := N_0
  funext i
  obtain ⟨c', v, rfl⟩ : ∃ (c' : Fin 3) (v : Fin 256), i = ix2 c' v := ⟨i 0, i 1, eq_ix2 i⟩
  have hv := v.isLt
  refine (shapeCast_apply _ _ (ix2 c' v) (ix3 c' (⟨v.val / 16, by omega⟩ : Fin 16) (⟨v.val % 16, by omega⟩ : Fin 16)) ?_).trans ?_
  · rw [Shape.rowMajor_val_three, Shape.rowMajor_val_two]
    show (c'.val * 16 + v.val / 16) * 16 + v.val % 16 = c'.val * 256 + v.val
    omega
  unfold Host.reduceAdd
  rw [Ideal.hostReduceAdd_def, Ideal.hostReduceAdd_single _ (by decide : S2x3x16x16.Reduces [0] S3x16x16)]
  show Ideal.ofBits .f32 0x00000000#32 + _ = _
  rw [ofBits_zero, zero_add]
  unfold hist Cert.Hist.count
  show _ = ∑ n : Fin 32, ∑ y : Fin 512, ∑ z : Fin 512,
      if (bin (m ((c : Thread nD τ).loc main_arg0) (ix4 n c' y z))).toNat = v.val then (1 : EReal) else 0
  rw [← regroup (fun n y z => if (bin (m ((c : Thread nD τ).loc main_arg0) (ix4 n c' y z))).toNat = v.val then (1 : EReal) else 0)]
  refine Finset.sum_congr rfl fun g _ => ?_
  have hg : g.val < 2 := g.isLt
  show outArr0 m c (ix4 g c' (⟨v.val / 16, by omega⟩ : Fin 16) (⟨v.val % 16, by omega⟩ : Fin 16)) = _
  unfold outArr0
  rw [zero_add, Finset.sum_range]
  refine Finset.sum_congr rfl fun s _ => ?_
  have hs := s.isLt
  have hlt : 32 * g.val + s.val < cfg0.N := by omega
  show add0 m c (32 * g.val + s.val) (ix3 c' (⟨v.val / 16, by omega⟩ : Fin 16) (⟨v.val % 16, by omega⟩ : Fin 16)) = _
  unfold add0
  rw [dif_pos hlt]
  unfold blockCount
  refine Finset.sum_congr rfl fun k _ => ?_
  rw [iblk0_apply]
  have hk := k.isLt
  have en : (⟨16 * ((⟨32 * g.val + s.val, hlt⟩ : Fin cfg0.N).val / 32) + (⟨32 * g.val + s.val, hlt⟩ : Fin cfg0.N).val % 32 / 2,
      by dsimp only; omega⟩ : Fin 32) = ⟨16 * g.val + s.val / 2, by omega⟩ := Fin.ext (by dsimp only; omega)
  have ey : (⟨256 * ((⟨32 * g.val + s.val, hlt⟩ : Fin cfg0.N).val % 2) + k.val / 512, by dsimp only; omega⟩ : Fin 512)
      = ⟨256 * (s.val % 2) + k.val / 512, by omega⟩ := Fin.ext (by dsimp only; omega)
  rw [en, ey]
  have ev : 16 * (v.val / 16) + v.val % 16 = v.val := by omega
  show (if (bin _).toNat = 16 * (v.val / 16) + v.val % 16 then (1 : EReal) else 0) = _
  rw [ev]

/-- Batch 1: the kernel's histogram array is the histogram of the batch. -/
theorem khist1 :
    shapeCast S3x256 (Host.reduceAdd (F := Ideal) (outArr1 m c) (constant S_ .f32 0x00000000#32)
        Gen.reducesTo_S2x3x16x16_S3x16x16_d0 Gen.h_S_) Gen.shapeCasts_S3x16x16_S3x256
      = hist (m ((c : Thread nD τ).loc main_arg1)) := by
  have hN : cfg0.N = 64 := N_0
  funext i
  obtain ⟨c', v, rfl⟩ : ∃ (c' : Fin 3) (v : Fin 256), i = ix2 c' v := ⟨i 0, i 1, eq_ix2 i⟩
  have hv := v.isLt
  refine (shapeCast_apply _ _ (ix2 c' v) (ix3 c' (⟨v.val / 16, by omega⟩ : Fin 16) (⟨v.val % 16, by omega⟩ : Fin 16)) ?_).trans ?_
  · rw [Shape.rowMajor_val_three, Shape.rowMajor_val_two]
    show (c'.val * 16 + v.val / 16) * 16 + v.val % 16 = c'.val * 256 + v.val
    omega
  unfold Host.reduceAdd
  rw [Ideal.hostReduceAdd_def, Ideal.hostReduceAdd_single _ (by decide : S2x3x16x16.Reduces [0] S3x16x16)]
  show Ideal.ofBits .f32 0x00000000#32 + _ = _
  rw [ofBits_zero, zero_add]
  unfold hist Cert.Hist.count
  show _ = ∑ n : Fin 32, ∑ y : Fin 512, ∑ z : Fin 512,
      if (bin (m ((c : Thread nD τ).loc main_arg1) (ix4 n c' y z))).toNat = v.val then (1 : EReal) else 0
  rw [← regroup (fun n y z => if (bin (m ((c : Thread nD τ).loc main_arg1) (ix4 n c' y z))).toNat = v.val then (1 : EReal) else 0)]
  refine Finset.sum_congr rfl fun g _ => ?_
  have hg : g.val < 2 := g.isLt
  show outArr1 m c (ix4 g c' (⟨v.val / 16, by omega⟩ : Fin 16) (⟨v.val % 16, by omega⟩ : Fin 16)) = _
  unfold outArr1
  rw [zero_add, Finset.sum_range]
  refine Finset.sum_congr rfl fun s _ => ?_
  have hs := s.isLt
  have hlt : 32 * g.val + s.val < cfg0.N := by omega
  show add1 m c (32 * g.val + s.val) (ix3 c' (⟨v.val / 16, by omega⟩ : Fin 16) (⟨v.val % 16, by omega⟩ : Fin 16)) = _
  unfold add1
  rw [dif_pos hlt]
  unfold blockCount
  refine Finset.sum_congr rfl fun k _ => ?_
  rw [iblk1_apply]
  have hk := k.isLt
  have en : (⟨16 * ((⟨32 * g.val + s.val, hlt⟩ : Fin cfg0.N).val / 32) + (⟨32 * g.val + s.val, hlt⟩ : Fin cfg0.N).val % 32 / 2,
      by dsimp only; omega⟩ : Fin 32) = ⟨16 * g.val + s.val / 2, by omega⟩ := Fin.ext (by dsimp only; omega)
  have ey : (⟨256 * ((⟨32 * g.val + s.val, hlt⟩ : Fin cfg0.N).val % 2) + k.val / 512, by dsimp only; omega⟩ : Fin 512)
      = ⟨256 * (s.val % 2) + k.val / 512, by omega⟩ := Fin.ext (by dsimp only; omega)
  rw [en, ey]
  have ev : 16 * (v.val / 16) + v.val % 16 = v.val := by omega
  show (if (bin _).toNat = 16 * (v.val / 16) + v.val % 16 then (1 : EReal) else 0) = _
  rw [ev]

end Cert.KHist

end
-- ==== Proof.Tail.lean ====
/-
  The closing arithmetic both programs apply to the two histograms.

  For each channel c: s_c = Σ_v sqrt(h1[c,v] · h2[c,v]); the channel means m1_c = (Σ_v h1[c,v]) / 256 and
  m2_c likewise; d_c = sqrt(max(1 − s_c / (sqrt(m1_c · m2_c) · 256), 0)); the result is Σ_c d_c. Every operation
  is the exact one on the extended reals; the literal words are 0.0, 1.0 and 256.0. The two programs print this
  chain operation for operation, so it is stated once and never opened: equal histograms give equal results.
-/
import proofs.«145997_j19834158972940_2_alg».proof.Proof.Spec
import Idealize.ShloMosaic.PureOps.Contract

noncomputable section

namespace Cert.Hist

open Idealize.ShloMosaic

/-- One value per channel. -/
abbrev SChan : Shape := ⟨1, ![3]⟩
/-- A single value. -/
abbrev SOne : Shape := ⟨0, ![]⟩

/-- The closing arithmetic, as one function of the two histograms. -/
def tail (h1 h2 : FVec Ideal SHist .f32) : FVec Ideal SOne .f32 :=
  let zero : FVec Ideal SOne .f32 := constant SOne .f32 0x00000000#32
  let k256 : FVec Ideal SChan .f32 :=
    broadcastInDim SChan ![] (by decide : SOne.BroadcastsInDim SChan (![] : Fin 0 → Fin SChan.rank)) (constant (F := Ideal) SOne .f32 0x43800000#32)
  let one : FVec Ideal SChan .f32 :=
    broadcastInDim SChan ![] (by decide : SOne.BroadcastsInDim SChan (![] : Fin 0 → Fin SChan.rank)) (constant (F := Ideal) SOne .f32 0x3F800000#32)
  let zeros : FVec Ideal SChan .f32 :=
    broadcastInDim SChan ![] (by decide : SOne.BroadcastsInDim SChan (![] : Fin 0 → Fin SChan.rank)) (constant (F := Ideal) SOne .f32 0x00000000#32)
  let s : FVec Ideal SChan .f32 :=
    Host.reduceAdd (F := Ideal) (Host.sqrt (F := Ideal) (mulf h1 h2)) zero (by decide : SHist.ReducesTo [1] SChan) (by decide)
  let m1 : FVec Ideal SChan .f32 :=
    Host.divf (F := Ideal) (Host.reduceAdd (F := Ideal) h1 zero (by decide : SHist.ReducesTo [1] SChan) (by decide)) k256
  let m2 : FVec Ideal SChan .f32 :=
    Host.divf (F := Ideal) (Host.reduceAdd (F := Ideal) h2 zero (by decide : SHist.ReducesTo [1] SChan) (by decide)) k256
  let den : FVec Ideal SChan .f32 := mulf (Host.sqrt (F := Ideal) (mulf m1 m2)) k256
  let d : FVec Ideal SChan .f32 := Host.sqrt (F := Ideal) (maximumf (subf one (Host.divf (F := Ideal) s den)) zeros)
  Host.reduceAdd (F := Ideal) d zero (by decide : SChan.ReducesTo [0] SOne) (by decide)

end Cert.Hist

end
-- ==== Proof.KRun.lean ====
/-
  The kernel's run, read: its result is the closing arithmetic of the two histograms.

  After the region the program's remaining operations — the sum of each output array's two halves, the re-layout to
  3 × 256, and the closing arithmetic — are host operations whose composed value the frame's post names. The two
  output arrays are the sums found before, so the two 3 × 256 arrays are the histograms of the two batches.
-/
import proofs.«145997_j19834158972940_2_alg».proof.Proof.KHistEq
import proofs.«145997_j19834158972940_2_alg».proof.Proof.Tail
import Idealize.ShloMosaic.Lib.StableHlo.Run

set_option maxRecDepth 16384

noncomputable section

namespace Cert.KHist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Hist
open Idealize.ShloMosaic.StableHlo

variable (m : (ℓ : Loc nD τ sig) → Buf (Elt Ideal) ℓ)

/-- What the region leaves in the first output array, as the later operations read it. -/
theorem arr0_eq (c : Dev nD) : (Pipeline.withArrays (cfgs 0).spec c (V0 m c) (fun w => (dats m 0 c).arrAt w (cfgs 0).N) (Proc.devRef .tc main_v0_0)) = outArr0 m c :=
  (Pipeline.withArrays_arr spec0 launch0.win.arr_inj c _ _ 2).trans (final2 m c)
/-- And in the second. -/
theorem arr1_eq (c : Dev nD) : (Pipeline.withArrays (cfgs 0).spec c (V0 m c) (fun w => (dats m 0 c).arrAt w (cfgs 0).N) (Proc.devRef .tc main_v0_1)) = outArr1 m c :=
  (Pipeline.withArrays_arr spec0 launch0.win.arr_inj c _ _ 3).trans (final3 m c)

set_option maxHeartbeats 8000000 in
/-- The program's result after the region: the closing arithmetic of the two batches' histograms. -/
theorem tail_eq (c : Dev nD) :
    Pipeline.afterTail₀ cfgs (dats m) 0 (V0 m) [hostOps1] c main_v24
      = tail (hist (m ((c : Thread nD τ).loc main_arg0))) (hist (m ((c : Thread nD τ).loc main_arg1))) := by
  unfold Pipeline.afterTail₀
  show StableHlo.after hostOps1 _ (Proc.devRef .tc main_v24) = _
  after_results
  show tail (shapeCast S3x256 (Host.reduceAdd (F := Ideal) (Pipeline.withArrays (cfgs 0).spec c (V0 m c) (fun w => (dats m 0 c).arrAt w (cfgs 0).N) (Proc.devRef .tc main_v0_0)) (constant S_ .f32 0x00000000#32)
        Gen.reducesTo_S2x3x16x16_S3x16x16_d0 Gen.h_S_) Gen.shapeCasts_S3x16x16_S3x256)
      (shapeCast S3x256 (Host.reduceAdd (F := Ideal) (Pipeline.withArrays (cfgs 0).spec c (V0 m c) (fun w => (dats m 0 c).arrAt w (cfgs 0).N) (Proc.devRef .tc main_v0_1)) (constant S_ .f32 0x00000000#32)
        Gen.reducesTo_S2x3x16x16_S3x16x16_d0 Gen.h_S_) Gen.shapeCasts_S3x16x16_S3x256) = _
  rw [arr0_eq, arr1_eq, khist0, khist1]

/-- Every weakly fair execution of the idealized kernel program terminates with its result at the closing arithmetic
    of the two histograms, and its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v24)
        = tail (hist (m ((c : Thread nD τ).loc main_arg0))) (hist (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v24 (Pipeline.mem_restRefs_of main_v24 rfl (by decide))).trans (tail_eq m c),
        ((h c).1 0).trans ((dats m 0 c).arrAt_in 0 rfl _),
        ((h c).1 1).trans ((dats m 0 c).arrAt_in 1 rfl _)⟩)
    (run_main m ρ)

end Cert.KHist

end
-- ==== Proof.RefHist.lean ====
/-
  The reference program's histogram is the count of pixels per channel and bin.

  The reference clips each pixel value to [0, 255], truncates it to an integer bin, adds 256 times the pixel's
  channel number, flattens the array of these positions row-major, and scatter-adds a one per pixel into an
  array of 768 zeros, which it then reads as 3 rows of 256. Entry (c, v) of the result is the number of pixels
  of channel c whose bin is v. The argument has four steps.

  1. The scatter has a rank-1 operand and no window axes, so update j lands on position k exactly when its
     position word, read as a signed integer, is k; a word outside [0, 768) is dropped.
  2. Hence position k of the scattered array is 0 plus the sum, over all flat pixel positions j, of one if the
     word of j is k and zero otherwise.
  3. The word of flat position j is bin + 256·channel of the pixel that j decodes to. It is never negative, so the
     correction that adds 768 to negative positions leaves it alone, and it equals 256·c + v only when the channel
     is c and the bin is v, because a bin is below 256.
  4. The flat positions correspond one to one to (image, channel, row, column) by quotients and remainders, so the
     sum over them is the fourfold sum; of the channel sum only the term of channel c survives.

  The second argument goes through the same operations, and what the reference does after the two histograms is,
  operation for operation, the shared closing arithmetic.
-/
import proofs.«145997_j19834158972940_2_alg».proof.Proof.Spec
import proofs.«145997_j19834158972940_2_alg».proof.Proof.Gen.ReferenceIdeal.Read
import proofs.«145997_j19834158972940_2_alg».proof.Proof.BinArith
import proofs.«145997_j19834158972940_2_alg».proof.Proof.Tail
import Idealize.ShloMosaic.Lib.IdealHost

noncomputable section

namespace Cert.RefHist

open Idealize.ShloMosaic Idealize.ShloMosaic.ValueIdx
open Cert.ReferenceIdeal Cert.ReferenceIdeal.Gen Cert.ReferenceIdeal.Read
open scoped BigOperators

/-! ## Where an update lands

The scatter has a rank-1 operand, no window axes, and reads update `j`'s one start coordinate from row `j` of
the index array. So the update lands at the operand position whose number is that word read as a signed
integer, and is dropped when the integer is outside the operand. -/

/-- The position in the index array that update `j` reads: row `j`, the one column. -/
abbrev siOf (j : S25165824.Idx) : S25165824x1.Idx := fun a => match a with
  | ⟨0, _⟩ => ⟨(j 0).val, (j 0).isLt⟩
  | ⟨1, _⟩ => ⟨0, Nat.one_pos⟩

/-- The scatter's dimension numbers. -/
abbrev D := scatter_S768_S25165824x1_S25165824_n_0_0_1

/-- The window's start on the operand's one axis is the index word of row `j`, read signed. -/
theorem start_eq (j : S25165824.Idx) (idx : IVec S25165824x1 32) (a : Fin S768.rank) :
    D.start j idx a = (idx (siOf j)).toInt := by
  obtain rfl : a = 0 := Subsingleton.elim _ _
  unfold ScatterDims.start
  rw [dif_pos (show (0 : Fin 1) ∈ D.scatterDimsToOperandDims from List.mem_singleton.mpr rfl)]
  have hsi : D.siIdx j ⟨List.idxOf (0 : Fin 1) D.scatterDimsToOperandDims,
      List.idxOf_lt_length_iff.2 (List.mem_singleton.mpr rfl)⟩ = siOf j := by
    funext b; refine Fin.ext ?_
    match b with
    | ⟨0, _⟩ => rfl
    | ⟨1, _⟩ => rfl
  rw [hsi]

/-- There is no window axis: the window coordinate is zero. -/
theorem window_eq (j : S25165824.Idx) (a : Fin S768.rank) : D.window j a = 0 := by
  obtain rfl : a = 0 := Subsingleton.elim _ _
  unfold ScatterDims.window
  rw [dif_neg (by decide)]

/-- Update `j` lands on operand position `k` exactly when its index word, read signed, is `k`'s number. -/
theorem resultIdx_iff (j : S25165824.Idx) (idx : IVec S25165824x1 32) (k : S768.Idx) :
    D.resultIdx? j idx = some k ↔ (idx (siOf j)).toInt = ((k 0).val : Int) := by
  have hk : (k 0).val < 768 := (k 0).isLt
  have hs : ∀ a, D.start j idx a + (D.window j a : Int) = (idx (siOf j)).toInt := fun a => by
    rw [start_eq, window_eq]; simp
  unfold ScatterDims.resultIdx?
  by_cases h : ∀ a, 0 ≤ D.start j idx a + (D.window j a : Int) ∧ D.start j idx a + (D.window j a : Int) < S768.size a
  · rw [dif_pos h]
    have h0 := h 0
    rw [hs 0] at h0
    have hsz : (S768.size 0 : Int) = 768 := rfl
    constructor
    · intro e
      have e' : ((D.start j idx 0 + (D.window j 0 : Int)).toNat) = (k 0).val :=
        congrArg (fun f : S768.Idx => (f 0).val) (Option.some.inj e)
      rw [hs 0] at e'
      omega
    · intro e
      refine congrArg some ?_
      funext a
      obtain rfl : a = 0 := Subsingleton.elim _ _
      refine Fin.ext ?_
      show (D.start j idx 0 + (D.window j 0 : Int)).toNat = (k 0).val
      rw [hs 0]; omega
  · rw [dif_neg h]
    constructor
    · intro e; cases e
    · intro e
      exfalso; apply h; intro a
      obtain rfl : a = 0 := Subsingleton.elim _ _
      have hsz : (S768.size 0 : Int) = 768 := rfl
      rw [hs 0, e]; omega

/-! ## The flat pixel positions, decoded -/

/-- A flat pixel position below 32·3·512·512 is the row-major position of exactly one
    (image, channel, row, column): the quotients and remainders by 512, 512 and 3. -/
def flatEquiv : S25165824.Idx ≃ Fin 32 × Fin 3 × Fin 512 × Fin 512 where
  toFun j :=
    (⟨(j 0).val / 786432, by have h0 : (j 0).val < 25165824 := (j 0).isLt; omega⟩,
     ⟨(j 0).val / 262144 % 3, by omega⟩,
     ⟨(j 0).val / 512 % 512, by omega⟩,
     ⟨(j 0).val % 512, by omega⟩)
  invFun p := ix1 ⟨((p.1.val * 3 + p.2.1.val) * 512 + p.2.2.1.val) * 512 + p.2.2.2.val, by
    have h0 := p.1.isLt; have h1 := p.2.1.isLt; have h2 := p.2.2.1.isLt; have h3 := p.2.2.2.isLt; omega⟩
  left_inv j := by
    funext a
    match a with
    | ⟨0, _⟩ =>
      refine Fin.ext ?_
      have h0 : (j 0).val < 25165824 := (j 0).isLt
      show (((j 0).val / 786432 * 3 + (j 0).val / 262144 % 3) * 512 + (j 0).val / 512 % 512) * 512 + (j 0).val % 512 = (j 0).val
      omega
  right_inv p := by
    obtain ⟨n, c, y, z⟩ := p
    have h0 := n.isLt; have h1 := c.isLt; have h2 := y.isLt; have h3 := z.isLt
    refine Prod.ext (Fin.ext ?_) (Prod.ext (Fin.ext ?_) (Prod.ext (Fin.ext ?_) (Fin.ext ?_)))
    · show (((n.val * 3 + c.val) * 512 + y.val) * 512 + z.val) / 786432 = n.val
      omega
    · show (((n.val * 3 + c.val) * 512 + y.val) * 512 + z.val) / 262144 % 3 = c.val
      omega
    · show (((n.val * 3 + c.val) * 512 + y.val) * 512 + z.val) / 512 % 512 = y.val
      omega
    · show (((n.val * 3 + c.val) * 512 + y.val) * 512 + z.val) % 512 = z.val
      omega

/-- The reshape's index function is that decoding. -/
theorem idx8_eq (j : S25165824.Idx) :
    idx_main_v8 j = ix4 (flatEquiv j).1 (flatEquiv j).2.1 (flatEquiv j).2.2.1 (flatEquiv j).2.2.2 := by
  funext a
  match a with
  | ⟨0, _⟩ => rfl
  | ⟨1, _⟩ => rfl
  | ⟨2, _⟩ => rfl
  | ⟨3, _⟩ => rfl

/-- A sum over the flat pixel positions of a function of the decoded index is the fourfold sum over
    image, channel, row and column. -/
theorem sum_flat {M : Type*} [AddCommMonoid M] (f : S32x3x512x512.Idx → M) :
    ∑ j : S25165824.Idx, f (idx_main_v8 j)
      = ∑ n : Fin 32, ∑ c : Fin 3, ∑ y : Fin 512, ∑ z : Fin 512, f (ix4 n c y z) := by
  rw [Fintype.sum_equiv flatEquiv (fun j => f (idx_main_v8 j))
    (fun p => f (ix4 p.1 p.2.1 p.2.2.1 p.2.2.2)) (fun j => congrArg f (idx8_eq j))]
  simp only [Fintype.sum_prod_type]

/-! ## The index words the scatter reads -/

/-- The flat position word of the pixel at `p`: its bin plus 256 times its channel. -/
def flatWord (x : Cert.Hist.SImg.Idx → EReal) (p : S32x3x512x512.Idx) : BitVec 32 :=
  IntOp.addi (Cert.Hist.bin (x p)) (IntOp.muli (BitVec.ofNat 32 (p 1).val) 256#32)

/-- The flattened array of positions holds, at `j`, the flat position word of the pixel `j` decodes to. -/
theorem v8_eq (x : Cert.Hist.SImg.Idx → EReal) (j : S25165824.Idx) :
    val_main_v8 (F := Ideal) x j = flatWord x (idx_main_v8 j) := by
  rw [val_main_v8_apply, val_main_v7_apply, val_main_v1_apply, val_main_v0_apply, val_main_call0_v4_apply,
    val_main_call0_v3_apply, val_main_cst_0_apply, val_main_call0_v2_apply, val_main_call0_v1_apply,
    val_main_call0_v0_apply, val_main_cst_apply, val_main_v6_apply, val_main_v5_apply, val_main_v4_apply,
    val_main_v2_apply, val_main_v3_apply, val_main_c_apply]
  rfl

/-- The word is that integer, so it is not negative. -/
theorem flatWord_toInt (x : Cert.Hist.SImg.Idx → EReal) (p : S32x3x512x512.Idx) :
    (flatWord x p).toInt = ((Cert.Hist.bin (x p)).toNat : Int) + 256 * ((p 1).val : Int) :=
  Cert.Hist.flat_toInt (x p) (p 1)

/-- The correction for negative positions leaves every position alone. -/
theorem v14_eq (x : Cert.Hist.SImg.Idx → EReal) (j : S25165824.Idx) :
    val_main_v14 (F := Ideal) x j = flatWord x (idx_main_v8 j) := by
  rw [val_main_v14_apply, val_main_v11_apply, val_main_v13_apply, val_main_v10_apply, val_main_c_2_apply,
    val_main_v12_apply, val_main_c_3_apply, v8_eq]
  refine Cert.Hist.wrap_id _ ?_
  rw [flatWord_toInt]
  omega

/-! ## The scattered array, and the histogram -/

/-- Row `j`, column 0 of the index array is entry `j` of the corrected positions. -/
theorem v15_at (x : Cert.Hist.SImg.Idx → EReal) (j : S25165824.Idx) :
    val_main_v15 (F := Ideal) x (siOf j) = flatWord x (idx_main_v8 j) := by
  rw [val_main_v15_apply]
  have hj : idx_main_v15 (siOf j) = j := by
    funext a
    match a with
    | ⟨0, _⟩ => rfl
  rw [hj, v14_eq]

/-- Every update is the real number one. -/
theorem v16_eq (j : S25165824.Idx) : val_main_v16 (F := Ideal) j = 1 := by
  rw [val_main_v16_apply, val_main_cst_4_apply, Ideal.ofBits_def, Ideal.ofBits_one_f32]

/-- The operand the scatter adds into is zero everywhere. -/
theorem v9_eq (k : S768.Idx) : val_main_v9 (F := Ideal) k = 0 := by
  rw [val_main_v9_apply, val_main_cst_1_apply, Ideal.ofBits_def, Ideal.ofBits_zero_f32]

/-- The exact scatter-add read at a position: the operand there plus, over every update, the update if it lands
    there and zero otherwise. Stated for any shapes, so nothing here depends on how many updates there are. -/
theorem scatterAdd_apply {s si su : Shape} {φ : FTy} {w : Nat} (d : ScatterDims s si su) (x : FVec Ideal s φ)
    (idx : IVec si w) (upd : FVec Ideal su φ) (i : s.Idx) :
    Host.scatterAdd d x idx upd i
      = x i + ∑ j : su.Idx, if d.resultIdx? j idx = some i then upd j else 0 := by
  unfold Host.scatterAdd
  rw [Ideal.hostScatterAdd_def]
  unfold Ideal.hostScatterAdd
  rw [Finset.sum_filter]

/-- Position `k` of the scattered array counts the pixels whose flat position word is `k`. -/
theorem v17_apply (x : Cert.Hist.SImg.Idx → EReal) (k : S768.Idx) :
    val_main_v17 (F := Ideal) x k
      = ∑ j : S25165824.Idx, if (flatWord x (idx_main_v8 j)).toInt = ((k 0).val : Int) then (1 : EReal) else 0 := by
  unfold val_main_v17
  rw [scatterAdd_apply, v9_eq, zero_add]
  refine Fintype.sum_congr _ _ (fun j => ?_)
  refine if_congr ?_ (v16_eq j) rfl
  rw [resultIdx_iff, v15_at]

/-- The reference's histogram of its first argument is the count of pixels per channel and bin. -/
theorem val_main_v18_eq (x : Cert.Hist.SImg.Idx → EReal) :
    val_main_v18 (F := Ideal) x = Cert.Hist.hist x := by
  funext i
  obtain ⟨c0, v, rfl⟩ : ∃ (c0 : Fin 3) (v : Fin 256), i = ix2 c0 v := ⟨i 0, i 1, eq_ix2 i⟩
  rw [val_main_v18_apply, v17_apply]
  have hk : (((idx_main_v18 (ix2 c0 v)) 0).val : Int) = ((c0.val * 256 + v.val : Nat) : Int) := rfl
  rw [hk]
  refine (sum_flat (fun p => if (flatWord x p).toInt = ((c0.val * 256 + v.val : Nat) : Int)
    then (1 : EReal) else 0)).trans ?_
  show _ = Cert.Hist.count x c0 v
  unfold Cert.Hist.count
  refine Finset.sum_congr rfl (fun n _ => ?_)
  have hv := v.isLt
  rw [Fintype.sum_eq_single c0]
  · refine Finset.sum_congr rfl (fun y _ => Finset.sum_congr rfl (fun z _ => ?_))
    refine if_congr ?_ rfl rfl
    have hft : (flatWord x (ix4 n c0 y z)).toInt
        = ((Cert.Hist.bin (x (ix4 n c0 y z))).toNat : Int) + 256 * (c0.val : Int) := flatWord_toInt x _
    have hb := Cert.Hist.bin_toNat_lt (x (ix4 n c0 y z))
    rw [hft]
    constructor <;> intro h <;> omega
  · intro c hc
    refine Finset.sum_eq_zero (fun y _ => Finset.sum_eq_zero (fun z _ => if_neg ?_))
    have hft : (flatWord x (ix4 n c y z)).toInt
        = ((Cert.Hist.bin (x (ix4 n c y z))).toNat : Int) + 256 * (c.val : Int) := flatWord_toInt x _
    have hb := Cert.Hist.bin_toNat_lt (x (ix4 n c y z))
    rw [hft]
    intro h
    exact hc (Fin.ext (by omega))

/-- The reference treats its second argument by the same operations, under other names. -/
theorem val_main_v37_eq (x : Cert.Hist.SImg.Idx → EReal) :
    val_main_v37 (F := Ideal) x = Cert.Hist.hist x :=
  (show val_main_v37 (F := Ideal) x = val_main_v18 (F := Ideal) x from rfl).trans (val_main_v18_eq x)

/-- The reference's result is the closing arithmetic applied to the two histograms: after the two histograms the
    reference's operations are, one for one, those of `Cert.Hist.tail`. -/
theorem result_eq (x0 x1 : Cert.Hist.SImg.Idx → EReal) :
    val_main_v57 (F := Ideal) x0 x1 = Cert.Hist.tail (Cert.Hist.hist x0) (Cert.Hist.hist x1) := by
  rw [← val_main_v18_eq x0, ← val_main_v37_eq x1]
  unfold val_main_v57 val_main_v56 val_main_v55 val_main_v54 val_main_v53 val_main_v52 val_main_v51 val_main_v50
    val_main_v49 val_main_v48 val_main_v47 val_main_v46 val_main_v45 val_main_v44 val_main_v43 val_main_v42
    val_main_v41 val_main_v40 val_main_v39 val_main_v38
  generalize val_main_v18 (F := Ideal) x0 = h1
  generalize val_main_v37 (F := Ideal) x1 = h2
  rfl

end Cert.RefHist

end
-- ==== Proof.lean ====
/-
  Two programs compare two batches of 32 three-channel 512 × 512 images by their colour histograms.

  Both clip every pixel value to [0, 255] and truncate it to a bin; both build, for each batch and channel, the
  256-bin histogram of the bins over the whole batch; both then apply the same closing arithmetic to the two
  histograms (per channel, one minus the sum of the square roots of the products of corresponding bins, over the
  square root of the product of the two means times 256; clipped at zero, square-rooted, summed over the channels).

  They differ in how the histogram is counted. One program adds a one, pixel by pixel, at the flat position
  256 · channel + bin of a table of 768 zeros. The other splits a bin into its two hexadecimal digits,
  bin = 16 · hi + lo, marks for every pixel of a block which of the sixteen values each digit takes, and multiplies
  the table of high-digit marks by the transposed table of low-digit marks: entry (hi, lo) of the product is the
  number of pixels of the block with that bin. It does this block by block — an image's three channels over 256
  rows at a time — adding the products into a running table per half of the batch, and at the end adds the two
  halves and lays the 3 × 16 × 16 result out as 3 × 256.

  Over the extended reals every operation is exact, so both histograms are the same count: each pixel contributes
  exactly one unit at exactly one (channel, bin), and a sum of ones does not depend on the order or grouping of its
  terms. The closing arithmetic is the same chain of operations on both sides, so equal histograms give equal
  results. No input needs to be finite for this: an infinite pixel value clips to 0 or 255 like any other.

  The three runs (each program terminates, faults nowhere, leaves its arguments unchanged) are the generated frame
  certificates of the two kernel programs and the generated run of the host program; the idealized kernel is the
  kernel's own text read over the extended reals, with no rewritten operation.
-/
import proofs.«145997_j19834158972940_2_alg».proof.Defs
import proofs.«145997_j19834158972940_2_alg».proof.Proof.Gen.Kernel
import proofs.«145997_j19834158972940_2_alg».proof.Proof.Gen.Kernel.Skeleton
import proofs.«145997_j19834158972940_2_alg».proof.Proof.Gen.Kernel.Launch
import proofs.«145997_j19834158972940_2_alg».proof.Proof.Gen.Kernel.Points
import proofs.«145997_j19834158972940_2_alg».proof.Proof.Gen.Kernel.Frame
import proofs.«145997_j19834158972940_2_alg».proof.Proof.Gen.KernelIdeal
import proofs.«145997_j19834158972940_2_alg».proof.Proof.Gen.KernelIdeal.Skeleton
import proofs.«145997_j19834158972940_2_alg».proof.Proof.Gen.KernelIdeal.Launch
import proofs.«145997_j19834158972940_2_alg».proof.Proof.Gen.KernelIdeal.Points
import proofs.«145997_j19834158972940_2_alg».proof.Proof.Gen.KernelIdeal.Frame
import proofs.«145997_j19834158972940_2_alg».proof.Proof.Gen.ReferenceIdeal
import proofs.«145997_j19834158972940_2_alg».proof.Proof.Gen.ReferenceIdeal.Run
import proofs.«145997_j19834158972940_2_alg».proof.Proof.Gen.ReferenceIdeal.Read
import proofs.«145997_j19834158972940_2_alg».proof.Proof.Gen.Pre_finite_inputs
import proofs.«145997_j19834158972940_2_alg».proof.Proof.KRun
import proofs.«145997_j19834158972940_2_alg».proof.Proof.RefHist
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The host program's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two image batches, both programs end with the closing arithmetic of the two
    batches' histograms. -/
theorem algebraic : Cert.algebraic_KernelIdeal_ReferenceIdeal := by
  intro m ρ m' ρ' _ hagree
  refine ⟨fun c => Cert.Hist.tail
      (Cert.Hist.hist (m ((c.tc : Thread Cert.KernelIdeal.nD Cert.KernelIdeal.τ).loc Cert.KernelIdeal.main_arg0)))
      (Cert.Hist.hist (m ((c.tc : Thread Cert.KernelIdeal.nD Cert.KernelIdeal.τ).loc Cert.KernelIdeal.main_arg1))),
    Cert.KHist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.RefHist.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
